-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S4096x2x1 : Shape := ⟨3, ![4096, 2, 1]⟩
abbrev S4096x2 : Shape := ⟨2, ![4096, 2]⟩
abbrev S4096x2x2 : Shape := ⟨3, ![4096, 2, 2]⟩
abbrev S4096x1x2 : Shape := ⟨3, ![4096, 1, 2]⟩
abbrev S4096x1 : Shape := ⟨2, ![4096, 1]⟩
abbrev S1024x2x1 : Shape := ⟨3, ![1024, 2, 1]⟩
abbrev S1024x2 : Shape := ⟨2, ![1024, 2]⟩
abbrev S1024x2x2 : Shape := ⟨3, ![1024, 2, 2]⟩
abbrev S1024x1x2 : Shape := ⟨3, ![1024, 1, 2]⟩
abbrev S1024x1 : Shape := ⟨2, ![1024, 1]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S4096x2x1 : S_.BroadcastsInDim S4096x2x1 (![] : Fin 0 → Fin S4096x2x1.rank)
  reducesTo_S4096x2x1_S_d0_1_2 : S4096x2x1.ReducesTo [0, 1, 2] S_
  bcast_S_S4096x2 : S_.BroadcastsInDim S4096x2 (![] : Fin 0 → Fin S4096x2.rank)
  reducesTo_S4096x2_S_d0_1 : S4096x2.ReducesTo [0, 1] S_
  bcast_S_S4096x2x2 : S_.BroadcastsInDim S4096x2x2 (![] : Fin 0 → Fin S4096x2x2.rank)
  reducesTo_S4096x2x2_S_d0_1_2 : S4096x2x2.ReducesTo [0, 1, 2] S_
  bcast_S_S4096x1x2 : S_.BroadcastsInDim S4096x1x2 (![] : Fin 0 → Fin S4096x1x2.rank)
  reducesTo_S4096x1x2_S_d0_1_2 : S4096x1x2.ReducesTo [0, 1, 2] S_
  bcast_S_S4096x1 : S_.BroadcastsInDim S4096x1 (![] : Fin 0 → Fin S4096x1.rank)
  reducesTo_S4096x1_S_d0_1 : S4096x1.ReducesTo [0, 1] S_
  bcast_S_S1024x2x1 : S_.BroadcastsInDim S1024x2x1 (![] : Fin 0 → Fin S1024x2x1.rank)
  reducesTo_S1024x2x1_S_d0_1_2 : S1024x2x1.ReducesTo [0, 1, 2] S_
  bcast_S_S1024x2 : S_.BroadcastsInDim S1024x2 (![] : Fin 0 → Fin S1024x2.rank)
  reducesTo_S1024x2_S_d0_1 : S1024x2.ReducesTo [0, 1] S_
  bcast_S_S1024x2x2 : S_.BroadcastsInDim S1024x2x2 (![] : Fin 0 → Fin S1024x2x2.rank)
  reducesTo_S1024x2x2_S_d0_1_2 : S1024x2x2.ReducesTo [0, 1, 2] S_
  bcast_S_S1024x1x2 : S_.BroadcastsInDim S1024x1x2 (![] : Fin 0 → Fin S1024x1x2.rank)
  reducesTo_S1024x1x2_S_d0_1_2 : S1024x1x2.ReducesTo [0, 1, 2] S_
  bcast_S_S1024x1 : S_.BroadcastsInDim S1024x1 (![] : Fin 0 → Fin S1024x1.rank)
  reducesTo_S1024x1_S_d0_1 : S1024x1.ReducesTo [0, 1] S_

variable [Facts]

def fn_part3 {F : FTy → Type} [FloatOps F] (main_arg11 : FVec F S1024x1x2 .f32) (main_arg12 : FVec F S1024x1 .f32) (main_v48 : IVec S_ 1) (main_v49 : FVec F S1024x2 .f32) (main_v50 : FVec F S1024x2 .f32) : IVec S_ 1 :=
  let main_v51 : IVec S1024x2 1 := cmpf .olt main_v49 main_v50
  let main_c_19 : IVec S_ 1 := constantI S_ 1 1#1
  let main_v52 : IVec S_ 1 := (fun x v => Host.reduce IntOp.andi x v reducesTo_S1024x2_S_d0_1 h_S_) main_v51 main_c_19
  let main_v53 : IVec S_ 1 := andi main_v48 main_v52
  let main_v54 : FVec F S1024x1x2 .f32 := Host.absf main_arg11
  let main_cst_20 : FVec F S_ .f32 := constant S_ .f32 0x7F800000#32
  let main_v55 : FVec F S1024x1x2 .f32 := broadcastInDim S1024x1x2 ![] bcast_S_S1024x1x2 main_cst_20
  let main_v56 : IVec S1024x1x2 1 := cmpf .olt main_v54 main_v55
  let main_c_21 : IVec S_ 1 := constantI S_ 1 1#1
  let main_v57 : IVec S_ 1 := (fun x v => Host.reduce IntOp.andi x v reducesTo_S1024x1x2_S_d0_1_2 h_S_) main_v56 main_c_21
  let main_v58 : IVec S_ 1 := andi main_v53 main_v57
  let main_v59 : FVec F S1024x1 .f32 := Host.absf main_arg12
  let main_cst_22 : FVec F S_ .f32 := constant S_ .f32 0x7F800000#32
  let main_v60 : FVec F S1024x1 .f32 := broadcastInDim S1024x1 ![] bcast_S_S1024x1 main_cst_22
  let main_v61 : IVec S1024x1 1 := cmpf .olt main_v59 main_v60
  let main_c_23 : IVec S_ 1 := constantI S_ 1 1#1
  let main_v62 : IVec S_ 1 := (fun x v => Host.reduce IntOp.andi x v reducesTo_S1024x1_S_d0_1 h_S_) main_v61 main_c_23
  let main_v63 : IVec S_ 1 := andi main_v58 main_v62
  main_v63

def fn_part2 {F : FTy → Type} [FloatOps F] (main_arg7 : FVec F S1024x2x1 .f32) (main_arg8 : FVec F S1024x2 .f32) (main_arg9 : FVec F S1024x2x2 .f32) (main_arg10 : FVec F S1024x2 .f32) (main_arg11 : FVec F S1024x1x2 .f32) (main_arg12 : FVec F S1024x1 .f32) (main_v33 : IVec S_ 1) : IVec S_ 1 :=
  let main_v34 : FVec F S1024x2x1 .f32 := Host.absf main_arg7
  let main_cst_12 : FVec F S_ .f32 := constant S_ .f32 0x7F800000#32
  let main_v35 : FVec F S1024x2x1 .f32 := broadcastInDim S1024x2x1 ![] bcast_S_S1024x2x1 main_cst_12
  let main_v36 : IVec S1024x2x1 1 := cmpf .olt main_v34 main_v35
  let main_c_13 : IVec S_ 1 := constantI S_ 1 1#1
  let main_v37 : IVec S_ 1 := (fun x v => Host.reduce IntOp.andi x v reducesTo_S1024x2x1_S_d0_1_2 h_S_) main_v36 main_c_13
  let main_v38 : IVec S_ 1 := andi main_v33 main_v37
  let main_v39 : FVec F S1024x2 .f32 := Host.absf main_arg8
  let main_cst_14 : FVec F S_ .f32 := constant S_ .f32 0x7F800000#32
  let main_v40 : FVec F S1024x2 .f32 := broadcastInDim S1024x2 ![] bcast_S_S1024x2 main_cst_14
  let main_v41 : IVec S1024x2 1 := cmpf .olt main_v39 main_v40
  let main_c_15 : IVec S_ 1 := constantI S_ 1 1#1
  let main_v42 : IVec S_ 1 := (fun x v => Host.reduce IntOp.andi x v reducesTo_S1024x2_S_d0_1 h_S_) main_v41 main_c_15
  let main_v43 : IVec S_ 1 := andi main_v38 main_v42
  let main_v44 : FVec F S1024x2x2 .f32 := Host.absf main_arg9
  let main_cst_16 : FVec F S_ .f32 := constant S_ .f32 0x7F800000#32
  let main_v45 : FVec F S1024x2x2 .f32 := broadcastInDim S1024x2x2 ![] bcast_S_S1024x2x2 main_cst_16
  let main_v46 : IVec S1024x2x2 1 := cmpf .olt main_v44 main_v45
  let main_c_17 : IVec S_ 1 := constantI S_ 1 1#1
  let main_v47 : IVec S_ 1 := (fun x v => Host.reduce IntOp.andi x v reducesTo_S1024x2x2_S_d0_1_2 h_S_) main_v46 main_c_17
  let main_v48 : IVec S_ 1 := andi main_v43 main_v47
  let main_v49 : FVec F S1024x2 .f32 := Host.absf main_arg10
  let main_cst_18 : FVec F S_ .f32 := constant S_ .f32 0x7F800000#32
  let main_v50 : FVec F S1024x2 .f32 := broadcastInDim S1024x2 ![] bcast_S_S1024x2 main_cst_18
  fn_part3 (F := F) main_arg11 main_arg12 main_v48 main_v49 main_v50

def fn_part1 {F : FTy → Type} [FloatOps F] (main_arg4 : FVec F S4096x2 .f32) (main_arg5 : FVec F S4096x1x2 .f32) (main_arg6 : FVec F S4096x1 .f32) (main_arg7 : FVec F S1024x2x1 .f32) (main_arg8 : FVec F S1024x2 .f32) (main_arg9 : FVec F S1024x2x2 .f32) (main_arg10 : FVec F S1024x2 .f32) (main_arg11 : FVec F S1024x1x2 .f32) (main_arg12 : FVec F S1024x1 .f32) (main_v13 : IVec S_ 1) (main_v16 : IVec S4096x2x2 1) : IVec S_ 1 :=
  let main_c_5 : IVec S_ 1 := constantI S_ 1 1#1
  let main_v17 : IVec S_ 1 := (fun x v => Host.reduce IntOp.andi x v reducesTo_S4096x2x2_S_d0_1_2 h_S_) main_v16 main_c_5
  let main_v18 : IVec S_ 1 := andi main_v13 main_v17
  let main_v19 : FVec F S4096x2 .f32 := Host.absf main_arg4
  let main_cst_6 : FVec F S_ .f32 := constant S_ .f32 0x7F800000#32
  let main_v20 : FVec F S4096x2 .f32 := broadcastInDim S4096x2 ![] bcast_S_S4096x2 main_cst_6
  let main_v21 : IVec S4096x2 1 := cmpf .olt main_v19 main_v20
  let main_c_7 : IVec S_ 1 := constantI S_ 1 1#1
  let main_v22 : IVec S_ 1 := (fun x v => Host.reduce IntOp.andi x v reducesTo_S4096x2_S_d0_1 h_S_) main_v21 main_c_7
  let main_v23 : IVec S_ 1 := andi main_v18 main_v22
  let main_v24 : FVec F S4096x1x2 .f32 := Host.absf main_arg5
  let main_cst_8 : FVec F S_ .f32 := constant S_ .f32 0x7F800000#32
  let main_v25 : FVec F S4096x1x2 .f32 := broadcastInDim S4096x1x2 ![] bcast_S_S4096x1x2 main_cst_8
  let main_v26 : IVec S4096x1x2 1 := cmpf .olt main_v24 main_v25
  let main_c_9 : IVec S_ 1 := constantI S_ 1 1#1
  let main_v27 : IVec S_ 1 := (fun x v => Host.reduce IntOp.andi x v reducesTo_S4096x1x2_S_d0_1_2 h_S_) main_v26 main_c_9
  let main_v28 : IVec S_ 1 := andi main_v23 main_v27
  let main_v29 : FVec F S4096x1 .f32 := Host.absf main_arg6
  let main_cst_10 : FVec F S_ .f32 := constant S_ .f32 0x7F800000#32
  let main_v30 : FVec F S4096x1 .f32 := broadcastInDim S4096x1 ![] bcast_S_S4096x1 main_cst_10
  let main_v31 : IVec S4096x1 1 := cmpf .olt main_v29 main_v30
  let main_c_11 : IVec S_ 1 := constantI S_ 1 1#1
  let main_v32 : IVec S_ 1 := (fun x v => Host.reduce IntOp.andi x v reducesTo_S4096x1_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x64 .f32) (main_arg1 : FVec F S4096x2x1 .f32) (main_arg2 : FVec F S4096x2 .f32) (main_arg3 : FVec F S4096x2x2 .f32) (main_arg4 : FVec F S4096x2 .f32) (main_arg5 : FVec F S4096x1x2 .f32) (main_arg6 : FVec F S4096x1 .f32) (main_arg7 : FVec F S1024x2x1 .f32) (main_arg8 : FVec F S1024x2 .f32) (main_arg9 : FVec F S1024x2x2 .f32) (main_arg10 : FVec F S1024x2 .f32) (main_arg11 : FVec F S1024x1x2 .f32) (main_arg12 : FVec F S1024x1 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S4096x2x1 .f32 := Host.absf main_arg1
  let main_cst_0 : FVec F S_ .f32 := constant S_ .f32 0x7F800000#32
  let main_v5 : FVec F S4096x2x1 .f32 := broadcastInDim S4096x2x1 ![] bcast_S_S4096x2x1 main_cst_0
  let main_v6 : IVec S4096x2x1 1 := cmpf .olt main_v4 main_v5
  let main_c_1 : IVec S_ 1 := constantI S_ 1 1#1
  let main_v7 : IVec S_ 1 := (fun x v => Host.reduce IntOp.andi x v reducesTo_S4096x2x1_S_d0_1_2 h_S_) main_v6 main_c_1
  let main_v8 : IVec S_ 1 := andi main_v3 main_v7
  let main_v9 : FVec F S4096x2 .f32 := Host.absf main_arg2
  let main_cst_2 : FVec F S_ .f32 := constant S_ .f32 0x7F800000#32
  let main_v10 : FVec F S4096x2 .f32 := broadcastInDim S4096x2 ![] bcast_S_S4096x2 main_cst_2
  let main_v11 : IVec S4096x2 1 := cmpf .olt main_v9 main_v10
  let main_c_3 : IVec S_ 1 := constantI S_ 1 1#1
  let main_v12 : IVec S_ 1 := (fun x v => Host.reduce IntOp.andi x v reducesTo_S4096x2_S_d0_1 h_S_) main_v11 main_c_3
  let main_v13 : IVec S_ 1 := andi main_v8 main_v12
  let main_v14 : FVec F S4096x2x2 .f32 := Host.absf main_arg3
  let main_cst_4 : FVec F S_ .f32 := constant S_ .f32 0x7F800000#32
  let main_v15 : FVec F S4096x2x2 .f32 := broadcastInDim S4096x2x2 ![] bcast_S_S4096x2x2 main_cst_4
  let main_v16 : IVec S4096x2x2 1 := cmpf .olt main_v14 main_v15
  fn_part1 (F := F) main_arg4 main_arg5 main_arg6 main_arg7 main_arg8 main_arg9 main_arg10 main_arg11 main_arg12 main_v13 main_v16
-- ==== Kernel.lean ====
abbrev S16384x64 : Shape := ⟨2, ![16384, 64]⟩
abbrev S4096x2x1 : Shape := ⟨3, ![4096, 2, 1]⟩
abbrev S4096x2 : Shape := ⟨2, ![4096, 2]⟩
abbrev S4096x2x2 : Shape := ⟨3, ![4096, 2, 2]⟩
abbrev S4096x1x2 : Shape := ⟨3, ![4096, 1, 2]⟩
abbrev S4096x1 : Shape := ⟨2, ![4096, 1]⟩
abbrev S1024x2x1 : Shape := ⟨3, ![1024, 2, 1]⟩
abbrev S1024x2 : Shape := ⟨2, ![1024, 2]⟩
abbrev S1024x2x2 : Shape := ⟨3, ![1024, 2, 2]⟩
abbrev S1024x1x2 : Shape := ⟨3, ![1024, 1, 2]⟩
abbrev S1024x1 : Shape := ⟨2, ![1024, 1]⟩
abbrev S64x64x2 : Shape := ⟨3, ![64, 64, 2]⟩
abbrev S2x64x64 : Shape := ⟨3, ![2, 64, 64]⟩
abbrev S64x64x2x2 : Shape := ⟨4, ![64, 64, 2, 2]⟩
abbrev S2x2x64x64 : Shape := ⟨4, ![2, 2, 64, 64]⟩
abbrev S4096 : Shape := ⟨1, ![4096]⟩
abbrev S64x64 : Shape := ⟨2, ![64, 64]⟩
abbrev S64x16x2 : Shape := ⟨3, ![64, 16, 2]⟩
abbrev S2x64x16 : Shape := ⟨3, ![2, 64, 16]⟩
abbrev S64x16x2x2 : Shape := ⟨4, ![64, 16, 2, 2]⟩
abbrev S2x2x64x16 : Shape := ⟨4, ![2, 2, 64, 16]⟩
abbrev S1024 : Shape := ⟨1, ![1024]⟩
abbrev S64x16 : Shape := ⟨2, ![64, 16]⟩
abbrev S64x16384 : Shape := ⟨2, ![64, 16384]⟩
abbrev S16x16384 : Shape := ⟨2, ![16, 16384]⟩
abbrev S64x256 : Shape := ⟨2, ![64, 256]⟩
abbrev S16x256 : Shape := ⟨2, ![16, 256]⟩
abbrev S64x1x256 : Shape := ⟨3, ![64, 1, 256]⟩
abbrev S1x64x64 : Shape := ⟨3, ![1, 64, 64]⟩
abbrev S64x64x1 : Shape := ⟨3, ![64, 64, 1]⟩
abbrev S64x64x256 : Shape := ⟨3, ![64, 64, 256]⟩
abbrev S1x1x64x64 : Shape := ⟨4, ![1, 1, 64, 64]⟩
abbrev S1x64x16 : Shape := ⟨3, ![1, 64, 16]⟩
abbrev S64x16x1 : Shape := ⟨3, ![64, 16, 1]⟩
abbrev S64x16x256 : Shape := ⟨3, ![64, 16, 256]⟩
abbrev S1x1x64x16 : Shape := ⟨4, ![1, 1, 64, 16]⟩
abbrev S16384x16 : Shape := ⟨2, ![16384, 16]⟩

abbrev nBuf : Space → Nat
  | .hbm => 44
  | .vmem => 16
  | .smem => 0
  | _ => 0

abbrev bufTy : (tb : Table) → Fin (tcTables nBuf tb) → BufTy
  | .hbm, ⟨0, _⟩ => ⟨S16384x64, .f32⟩
  | .hbm, ⟨1, _⟩ => ⟨S4096x2x1, .f32⟩
  | .hbm, ⟨2, _⟩ => ⟨S4096x2, .f32⟩
  | .hbm, ⟨3, _⟩ => ⟨S4096x2x2, .f32⟩
  | .hbm, ⟨4, _⟩ => ⟨S4096x2, .f32⟩
  | .hbm, ⟨5, _⟩ => ⟨S4096x1x2, .f32⟩
  | .hbm, ⟨6, _⟩ => ⟨S4096x1, .f32⟩
  | .hbm, ⟨7, _⟩ => ⟨S1024x2x1, .f32⟩
  | .hbm, ⟨8, _⟩ => ⟨S1024x2, .f32⟩
  | .hbm, ⟨9, _⟩ => ⟨S1024x2x2, .f32⟩
  | .hbm, ⟨10, _⟩ => ⟨S1024x2, .f32⟩
  | .hbm, ⟨11, _⟩ => ⟨S1024x1x2, .f32⟩
  | .hbm, ⟨12, _⟩ => ⟨S1024x1, .f32⟩
  | .hbm, ⟨13, _⟩ => ⟨S4096x2, .f32⟩
  | .hbm, ⟨14, _⟩ => ⟨S64x64x2, .f32⟩
  | .hbm, ⟨15, _⟩ => ⟨S2x64x64, .f32⟩
  | .hbm, ⟨16, _⟩ => ⟨S64x64x2, .f32⟩
  | .hbm, ⟨17, _⟩ => ⟨S2x64x64, .f32⟩
  | .hbm, ⟨18, _⟩ => ⟨S64x64x2x2, .f32⟩
  | .hbm, ⟨19, _⟩ => ⟨S2x2x64x64, .f32⟩
  | .hbm, ⟨20, _⟩ => ⟨S64x64x2, .f32⟩
  | .hbm, ⟨21, _⟩ => ⟨S2x64x64, .f32⟩
  | .hbm, ⟨22, _⟩ => ⟨S4096x2, .f32⟩
  | .hbm, ⟨23, _⟩ => ⟨S64x64x2, .f32⟩
  | .hbm, ⟨24, _⟩ => ⟨S2x64x64, .f32⟩
  | .hbm, ⟨25, _⟩ => ⟨S4096, .f32⟩
  | .hbm, ⟨26, _⟩ => ⟨S64x64, .f32⟩
  | .hbm, ⟨27, _⟩ => ⟨S1024x2, .f32⟩
  | .hbm, ⟨28, _⟩ => ⟨S64x16x2, .f32⟩
  | .hbm, ⟨29, _⟩ => ⟨S2x64x16, .f32⟩
  | .hbm, ⟨30, _⟩ => ⟨S64x16x2, .f32⟩
  | .hbm, ⟨31, _⟩ => ⟨S2x64x16, .f32⟩
  | .hbm, ⟨32, _⟩ => ⟨S64x16x2x2, .f32⟩
  | .hbm, ⟨33, _⟩ => ⟨S2x2x64x16, .f32⟩
  | .hbm, ⟨34, _⟩ => ⟨S64x16x2, .f32⟩
  | .hbm, ⟨35, _⟩ => ⟨S2x64x16, .f32⟩
  | .hbm, ⟨36, _⟩ => ⟨S1024x2, .f32⟩
  | .hbm, ⟨37, _⟩ => ⟨S64x16x2, .f32⟩
  | .hbm, ⟨38, _⟩ => ⟨S2x64x16, .f32⟩
  | .hbm, ⟨39, _⟩ => ⟨S1024, .f32⟩
  | .hbm, ⟨40, _⟩ => ⟨S64x16, .f32⟩
  | .hbm, ⟨41, _⟩ => ⟨S64x16384, .f32⟩
  | .hbm, ⟨42, _⟩ => ⟨S16x16384, .f32⟩
  | .hbm, ⟨43, _⟩ => ⟨S16384x16, .f32⟩
  | .local _ .vmem, ⟨0, _⟩ => ⟨S64x256, .f32⟩
  | .local _ .vmem, ⟨1, _⟩ => ⟨S64x256, .f32⟩
  | .local _ .vmem, ⟨2, _⟩ => ⟨S2x64x64, .f32⟩
  | .local _ .vmem, ⟨3, _⟩ => ⟨S2x64x64, .f32⟩
  | .local _ .vmem, ⟨4, _⟩ => ⟨S2x2x64x64, .f32⟩
  | .local _ .vmem, ⟨5, _⟩ => ⟨S2x64x64, .f32⟩
  | .local _ .vmem, ⟨6, _⟩ => ⟨S2x64x64, .f32⟩
  | .local _ .vmem, ⟨7, _⟩ => ⟨S64x64, .f32⟩
  | .local _ .vmem, ⟨8, _⟩ => ⟨S2x64x16, .f32⟩
  | .local _ .vmem, ⟨9, _⟩ => ⟨S2x64x16, .f32⟩
  | .local _ .vmem, ⟨10, _⟩ => ⟨S2x2x64x16, .f32⟩
  | .local _ .vmem, ⟨11, _⟩ => ⟨S2x64x16, .f32⟩
  | .local _ .vmem, ⟨12, _⟩ => ⟨S2x64x16, .f32⟩
  | .local _ .vmem, ⟨13, _⟩ => ⟨S64x16, .f32⟩
  | .local _ .vmem, ⟨14, _⟩ => ⟨S16x256, .f32⟩
  | .local _ .vmem, ⟨15, _⟩ => ⟨S16x256, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x64x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x64x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x2x64x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x64x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x64x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S16x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S4096x2x1_S4096x2 : S4096x2x1.ShapeCasts S4096x2
  shapeCasts_S4096x2_S64x64x2 : S4096x2.ShapeCasts S64x64x2
  transposes_S64x64x2_S2x64x64_2_0_1 : S64x64x2.Transposes [2, 0, 1] S2x64x64
  shapeCasts_S4096x2x2_S64x64x2x2 : S4096x2x2.ShapeCasts S64x64x2x2
  transposes_S64x64x2x2_S2x2x64x64_2_3_0_1 : S64x64x2x2.Transposes [2, 3, 0, 1] S2x2x64x64
  shapeCasts_S4096x1x2_S4096x2 : S4096x1x2.ShapeCasts S4096x2
  shapeCasts_S4096x1_S4096 : S4096x1.ShapeCasts S4096
  shapeCasts_S4096_S64x64 : S4096.ShapeCasts S64x64
  shapeCasts_S1024x2x1_S1024x2 : S1024x2x1.ShapeCasts S1024x2
  shapeCasts_S1024x2_S64x16x2 : S1024x2.ShapeCasts S64x16x2
  transposes_S64x16x2_S2x64x16_2_0_1 : S64x16x2.Transposes [2, 0, 1] S2x64x16
  shapeCasts_S1024x2x2_S64x16x2x2 : S1024x2x2.ShapeCasts S64x16x2x2
  transposes_S64x16x2x2_S2x2x64x16_2_3_0_1 : S64x16x2x2.Transposes [2, 3, 0, 1] S2x2x64x16
  shapeCasts_S1024x1x2_S1024x2 : S1024x1x2.ShapeCasts S1024x2
  shapeCasts_S1024x1_S1024 : S1024x1.ShapeCasts S1024
  shapeCasts_S1024_S64x16 : S1024.ShapeCasts S64x16
  transposes_S16384x64_S64x16384_1_0 : S16384x64.Transposes [1, 0] S64x16384
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S2x64x64_S2x64x64_0_0_0 : ∀ a, (![0, 0, 0] : Fin 3 → Nat) a + S2x64x64.size a ≤ S2x64x64.size a
  h_S2x64x64 : 0 < S2x64x64.numel
  shapeCasts_S2x64x64_S2x64x64 : S2x64x64.ShapeCasts S2x64x64
  inb_S2x2x64x64_S2x2x64x64_0_0_0_0 : ∀ a, (![0, 0, 0, 0] : Fin 4 → Nat) a + S2x2x64x64.size a ≤ S2x2x64x64.size a
  h_S2x2x64x64 : 0 < S2x2x64x64.numel
  shapeCasts_S2x2x64x64_S2x2x64x64 : S2x2x64x64.ShapeCasts S2x2x64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64x256_S64x1x256 : S64x256.ShapeCasts S64x1x256
  slices_S2x64x64_o0_0_0_S1x64x64 : S2x64x64.Slices ![0, 0, 0] S1x64x64
  shapeCasts_S1x64x64_S64x64 : S1x64x64.ShapeCasts S64x64
  shapeCasts_S64x64_S64x64x1 : S64x64.ShapeCasts S64x64x1
  slices_S2x64x64_o1_0_0_S1x64x64 : S2x64x64.Slices ![1, 0, 0] S1x64x64
  broadcasts_S64x1x256_S64x64x256 : S64x1x256.Broadcasts S64x64x256
  broadcasts_S64x64x1_S64x64x256 : S64x64x1.Broadcasts S64x64x256
  slices_S2x2x64x64_o0_0_0_0_S1x1x64x64 : S2x2x64x64.Slices ![0, 0, 0, 0] S1x1x64x64
  shapeCasts_S1x1x64x64_S64x64 : S1x1x64x64.ShapeCasts S64x64
  slices_S2x2x64x64_o0_1_0_0_S1x1x64x64 : S2x2x64x64.Slices ![0, 1, 0, 0] S1x1x64x64
  slices_S2x2x64x64_o1_0_0_0_S1x1x64x64 : S2x2x64x64.Slices ![1, 0, 0, 0] S1x1x64x64
  slices_S2x2x64x64_o1_1_0_0_S1x1x64x64 : S2x2x64x64.Slices ![1, 1, 0, 0] S1x1x64x64
  reduces_S64x64x256_S64x256 : S64x64x256.Reduces [0] S64x256
  inb_S2x64x16_S2x64x16_0_0_0 : ∀ a, (![0, 0, 0] : Fin 3 → Nat) a + S2x64x16.size a ≤ S2x64x16.size a
  h_S2x64x16 : 0 < S2x64x16.numel
  shapeCasts_S2x64x16_S2x64x16 : S2x64x16.ShapeCasts S2x64x16
  inb_S2x2x64x16_S2x2x64x16_0_0_0_0 : ∀ a, (![0, 0, 0, 0] : Fin 4 → Nat) a + S2x2x64x16.size a ≤ S2x2x64x16.size a
  h_S2x2x64x16 : 0 < S2x2x64x16.numel
  shapeCasts_S2x2x64x16_S2x2x64x16 : S2x2x64x16.ShapeCasts S2x2x64x16
  inb_S64x16_S64x16_0_0 : ∀ a, (![0, 0] : Fin 2 → Nat) a + S64x16.size a ≤ S64x16.size a
  h_S64x16 : 0 < S64x16.numel
  shapeCasts_S64x16_S64x16 : S64x16.ShapeCasts S64x16
  slices_S2x64x16_o0_0_0_S1x64x16 : S2x64x16.Slices ![0, 0, 0] S1x64x16
  shapeCasts_S1x64x16_S64x16 : S1x64x16.ShapeCasts S64x16
  shapeCasts_S64x16_S64x16x1 : S64x16.ShapeCasts S64x16x1
  slices_S2x64x16_o1_0_0_S1x64x16 : S2x64x16.Slices ![1, 0, 0] S1x64x16
  broadcasts_S64x1x256_S64x16x256 : S64x1x256.Broadcasts S64x16x256
  broadcasts_S64x16x1_S64x16x256 : S64x16x1.Broadcasts S64x16x256
  slices_S2x2x64x16_o0_0_0_0_S1x1x64x16 : S2x2x64x16.Slices ![0, 0, 0, 0] S1x1x64x16
  shapeCasts_S1x1x64x16_S64x16 : S1x1x64x16.ShapeCasts S64x16
  slices_S2x2x64x16_o0_1_0_0_S1x1x64x16 : S2x2x64x16.Slices ![0, 1, 0, 0] S1x1x64x16
  slices_S2x2x64x16_o1_0_0_0_S1x1x64x16 : S2x2x64x16.Slices ![1, 0, 0, 0] S1x1x64x16
  slices_S2x2x64x16_o1_1_0_0_S1x1x64x16 : S2x2x64x16.Slices ![1, 1, 0, 0] S1x1x64x16
  reduces_S64x16x256_S16x256 : S64x16x256.Reduces [0] S16x256
  inb_S16x256_S16x256_0_0 : ∀ a, (![0, 0] : Fin 2 → Nat) a + S16x256.size a ≤ S16x256.size a
  h_S16x256 : 0 < S16x256.numel
  transposes_S16x16384_S16384x16_1_0 : S16x16384.Transposes [1, 0] S16384x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S64x16384.size a
  hwx0_0 : ∀ i : grid0.Coords, EltTy.bits .f32 = 32 ∨ (Rect.block (s := S64x16384) S64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64x64.size a ≤ S2x64x64.size a
  hwx0_1 : ∀ i : grid0.Coords, EltTy.bits .f32 = 32 ∨ (Rect.block (s := S2x64x64) S2x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64x64.size a ≤ S2x64x64.size a
  hwx0_2 : ∀ i : grid0.Coords, EltTy.bits .f32 = 32 ∨ (Rect.block (s := S2x64x64) S2x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x2x64x64.size a ≤ S2x2x64x64.size a
  hwx0_3 : ∀ i : grid0.Coords, EltTy.bits .f32 = 32 ∨ (Rect.block (s := S2x2x64x64) S2x2x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x64x64.size a ≤ S2x64x64.size a
  hwx0_4 : ∀ i : grid0.Coords, EltTy.bits .f32 = 32 ∨ (Rect.block (s := S2x64x64) S2x64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x64x64.size a ≤ S2x64x64.size a
  hwx0_5 : ∀ i : grid0.Coords, EltTy.bits .f32 = 32 ∨ (Rect.block (s := S2x64x64) S2x64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x64x16.size a ≤ S2x64x16.size a
  hwx0_7 : ∀ i : grid0.Coords, EltTy.bits .f32 = 32 ∨ (Rect.block (s := S2x64x16) S2x64x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x64x16.size a ≤ S2x64x16.size a
  hwx0_8 : ∀ i : grid0.Coords, EltTy.bits .f32 = 32 ∨ (Rect.block (s := S2x64x16) S2x64x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x2x64x16.size a ≤ S2x2x64x16.size a
  hwx0_9 : ∀ i : grid0.Coords, EltTy.bits .f32 = 32 ∨ (Rect.block (s := S2x2x64x16) S2x2x64x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x64x16.size a ≤ S2x64x16.size a
  hwx0_10 : ∀ i : grid0.Coords, EltTy.bits .f32 = 32 ∨ (Rect.block (s := S2x64x16) S2x64x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x64x16.size a ≤ S2x64x16.size a
  hwx0_11 : ∀ i : grid0.Coords, EltTy.bits .f32 = 32 ∨ (Rect.block (s := S2x64x16) S2x64x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x16.size a ≤ S64x16.size a
  hwx0_12 : ∀ i : grid0.Coords, EltTy.bits .f32 = 32 ∨ (Rect.block (s := S64x16) S64x16.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S16x256.size a ≤ S16x16384.size a
  hwx0_13 : ∀ i : grid0.Coords, EltTy.bits .f32 = 32 ∨ (Rect.block (s := S16x16384) S16x256.size (cc0_transform_13 i) (hinb0_13 i)).WholeWords (EltTy.packing .f32)

variable [Facts₀]

abbrev win0_0 : Pipeline.Window sig grid0 :=
  Pipeline.Window.ofSpec (Memref.whole main_v28) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2x2x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2x64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S2x64x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S2x64x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S2x2x64x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S2x64x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25) S2x64x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v27) S64x16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v29) S16x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x64 : Shape := ⟨2, ![16384, 64]⟩
abbrev S4096x2x1 : Shape := ⟨3, ![4096, 2, 1]⟩
abbrev S4096x2 : Shape := ⟨2, ![4096, 2]⟩
abbrev S4096x2x2 : Shape := ⟨3, ![4096, 2, 2]⟩
abbrev S4096x1x2 : Shape := ⟨3, ![4096, 1, 2]⟩
abbrev S4096x1 : Shape := ⟨2, ![4096, 1]⟩
abbrev S1024x2x1 : Shape := ⟨3, ![1024, 2, 1]⟩
abbrev S1024x2 : Shape := ⟨2, ![1024, 2]⟩
abbrev S1024x2x2 : Shape := ⟨3, ![1024, 2, 2]⟩
abbrev S1024x1x2 : Shape := ⟨3, ![1024, 1, 2]⟩
abbrev S1024x1 : Shape := ⟨2, ![1024, 1]⟩
abbrev S64x16384 : Shape := ⟨2, ![64, 16384]⟩
abbrev S64x64x16384 : Shape := ⟨3, ![64, 64, 16384]⟩
abbrev S4096x16384 : Shape := ⟨2, ![4096, 16384]⟩
abbrev S4096x16384x1 : Shape := ⟨3, ![4096, 16384, 1]⟩
abbrev S4096x16384x2 : Shape := ⟨3, ![4096, 16384, 2]⟩
abbrev S_ : Shape := ⟨0, ![]⟩
abbrev S4096x1x1 : Shape := ⟨3, ![4096, 1, 1]⟩
abbrev S64x16x16384 : Shape := ⟨3, ![64, 16, 16384]⟩
abbrev S1024x16384 : Shape := ⟨2, ![1024, 16384]⟩
abbrev S1024x16384x1 : Shape := ⟨3, ![1024, 16384, 1]⟩
abbrev S1024x16384x2 : Shape := ⟨3, ![1024, 16384, 2]⟩
abbrev S1024x1x1 : Shape := ⟨3, ![1024, 1, 1]⟩
abbrev S16x16384 : Shape := ⟨2, ![16, 16384]⟩
abbrev S16384x16 : Shape := ⟨2, ![16384, 16]⟩

abbrev nBuf : Space → Nat
  | .hbm => 67
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S4096x2x1, .f32⟩
  | .hbm, ⟨2, _⟩ => ⟨S4096x2, .f32⟩
  | .hbm, ⟨3, _⟩ => ⟨S4096x2x2, .f32⟩
  | .hbm, ⟨4, _⟩ => ⟨S4096x2, .f32⟩
  | .hbm, ⟨5, _⟩ => ⟨S4096x1x2, .f32⟩
  | .hbm, ⟨6, _⟩ => ⟨S4096x1, .f32⟩
  | .hbm, ⟨7, _⟩ => ⟨S1024x2x1, .f32⟩
  | .hbm, ⟨8, _⟩ => ⟨S1024x2, .f32⟩
  | .hbm, ⟨9, _⟩ => ⟨S1024x2x2, .f32⟩
  | .hbm, ⟨10, _⟩ => ⟨S1024x2, .f32⟩
  | .hbm, ⟨11, _⟩ => ⟨S1024x1x2, .f32⟩
  | .hbm, ⟨12, _⟩ => ⟨S1024x1, .f32⟩
  | .hbm, ⟨13, _⟩ => ⟨S64x16384, .f32⟩
  | .hbm, ⟨14, _⟩ => ⟨S64x64x16384, .f32⟩
  | .hbm, ⟨15, _⟩ => ⟨S4096x16384, .f32⟩
  | .hbm, ⟨16, _⟩ => ⟨S4096x16384x1, .f32⟩
  | .hbm, ⟨17, _⟩ => ⟨S4096x16384x2, .f32⟩
  | .hbm, ⟨18, _⟩ => ⟨S4096x1x2, .f32⟩
  | .hbm, ⟨19, _⟩ => ⟨S4096x16384x2, .f32⟩
  | .hbm, ⟨20, _⟩ => ⟨S4096x16384x2, .f32⟩
  | .hbm, ⟨21, _⟩ => ⟨S_, .f32⟩
  | .hbm, ⟨22, _⟩ => ⟨S4096x16384x2, .f32⟩
  | .hbm, ⟨23, _⟩ => ⟨S4096x16384x2, .f32⟩
  | .hbm, ⟨24, _⟩ => ⟨S4096x16384x2, .f32⟩
  | .hbm, ⟨25, _⟩ => ⟨S4096x1x2, .f32⟩
  | .hbm, ⟨26, _⟩ => ⟨S4096x16384x2, .f32⟩
  | .hbm, ⟨27, _⟩ => ⟨S4096x16384x2, .f32⟩
  | .hbm, ⟨28, _⟩ => ⟨S_, .f32⟩
  | .hbm, ⟨29, _⟩ => ⟨S4096x16384x2, .f32⟩
  | .hbm, ⟨30, _⟩ => ⟨S4096x16384x2, .f32⟩
  | .hbm, ⟨31, _⟩ => ⟨S4096x16384x1, .f32⟩
  | .hbm, ⟨32, _⟩ => ⟨S4096x1x1, .f32⟩
  | .hbm, ⟨33, _⟩ => ⟨S4096x16384x1, .f32⟩
  | .hbm, ⟨34, _⟩ => ⟨S4096x16384x1, .f32⟩
  | .hbm, ⟨35, _⟩ => ⟨S4096x16384, .f32⟩
  | .hbm, ⟨36, _⟩ => ⟨S64x64x16384, .f32⟩
  | .hbm, ⟨37, _⟩ => ⟨S_, .f32⟩
  | .hbm, ⟨38, _⟩ => ⟨S64x16384, .f32⟩
  | .hbm, ⟨39, _⟩ => ⟨S16384x64, .f32⟩
  | .hbm, ⟨40, _⟩ => ⟨S64x16384, .f32⟩
  | .hbm, ⟨41, _⟩ => ⟨S64x16x16384, .f32⟩
  | .hbm, ⟨42, _⟩ => ⟨S1024x16384, .f32⟩
  | .hbm, ⟨43, _⟩ => ⟨S1024x16384x1, .f32⟩
  | .hbm, ⟨44, _⟩ => ⟨S1024x16384x2, .f32⟩
  | .hbm, ⟨45, _⟩ => ⟨S1024x1x2, .f32⟩
  | .hbm, ⟨46, _⟩ => ⟨S1024x16384x2, .f32⟩
  | .hbm, ⟨47, _⟩ => ⟨S1024x16384x2, .f32⟩
  | .hbm, ⟨48, _⟩ => ⟨S_, .f32⟩
  | .hbm, ⟨49, _⟩ => ⟨S1024x16384x2, .f32⟩
  | .hbm, ⟨50, _⟩ => ⟨S1024x16384x2, .f32⟩
  | .hbm, ⟨51, _⟩ => ⟨S1024x16384x2, .f32⟩
  | .hbm, ⟨52, _⟩ => ⟨S1024x1x2, .f32⟩
  | .hbm, ⟨53, _⟩ => ⟨S1024x16384x2, .f32⟩
  | .hbm, ⟨54, _⟩ => ⟨S1024x16384x2, .f32⟩
  | .hbm, ⟨55, _⟩ => ⟨S_, .f32⟩
  | .hbm, ⟨56, _⟩ => ⟨S1024x16384x2, .f32⟩
  | .hbm, ⟨57, _⟩ => ⟨S1024x16384x2, .f32⟩
  | .hbm, ⟨58, _⟩ => ⟨S1024x16384x1, .f32⟩
  | .hbm, ⟨59, _⟩ => ⟨S1024x1x1, .f32⟩
  | .hbm, ⟨60, _⟩ => ⟨S1024x16384x1, .f32⟩
  | .hbm, ⟨61, _⟩ => ⟨S1024x16384x1, .f32⟩
  | .hbm, ⟨62, _⟩ => ⟨S1024x16384, .f32⟩
  | .hbm, ⟨63, _⟩ => ⟨S64x16x16384, .f32⟩
  | .hbm, ⟨64, _⟩ => ⟨S_, .f32⟩
  | .hbm, ⟨65, _⟩ => ⟨S16x16384, .f32⟩
  | .hbm, ⟨66, _⟩ => ⟨S16384x16, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_cst : Ref sig .tc := ⟨.hbm, 28, rfl⟩
abbrev main_call1_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call2_cst : Ref sig .tc := ⟨.hbm, 48, rfl⟩
abbrev main_call2_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call3_cst : Ref sig .tc := ⟨.hbm, 55, rfl⟩
abbrev main_call3_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_0 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]

class Facts₀ : Prop where
  transposes_S16384x64_S64x16384_1_0 : S16384x64.Transposes [1, 0] S64x16384
  bcast_S64x16384_S64x64x16384_0_2 : S64x16384.BroadcastsInDim S64x64x16384 (![0, 2] : Fin 2 → Fin S64x64x16384.rank)
  shapeCasts_S64x64x16384_S4096x16384 : S64x64x16384.ShapeCasts S4096x16384
  bcast_S4096x16384_S4096x16384x1_0_1 : S4096x16384.BroadcastsInDim S4096x16384x1 (![0, 1] : Fin 2 → Fin S4096x16384x1.rank)
  bcast_S4096x2_S4096x1x2_0_2 : S4096x2.BroadcastsInDim S4096x1x2 (![0, 2] : Fin 2 → Fin S4096x1x2.rank)
  bcast_S4096x1x2_S4096x16384x2_0_1_2 : S4096x1x2.BroadcastsInDim S4096x16384x2 (![0, 1, 2] : Fin 3 → Fin S4096x16384x2.rank)
  bcast_S_S4096x16384x2 : S_.BroadcastsInDim S4096x16384x2 (![] : Fin 0 → Fin S4096x16384x2.rank)
  bcast_S4096x1_S4096x1x1_0_2 : S4096x1.BroadcastsInDim S4096x1x1 (![0, 2] : Fin 2 → Fin S4096x1x1.rank)
  bcast_S4096x1x1_S4096x16384x1_0_1_2 : S4096x1x1.BroadcastsInDim S4096x16384x1 (![0, 1, 2] : Fin 3 → Fin S4096x16384x1.rank)
  shapeCasts_S4096x16384x1_S4096x16384 : S4096x16384x1.ShapeCasts S4096x16384
  shapeCasts_S4096x16384_S64x64x16384 : S4096x16384.ShapeCasts S64x64x16384
  reducesTo_S64x64x16384_S64x16384_d0 : S64x64x16384.ReducesTo [0] S64x16384
  h_S_ : 0 < S_.numel
  transposes_S64x16384_S16384x64_1_0 : S64x16384.Transposes [1, 0] S16384x64
  bcast_S64x16384_S64x16x16384_0_2 : S64x16384.BroadcastsInDim S64x16x16384 (![0, 2] : Fin 2 → Fin S64x16x16384.rank)
  shapeCasts_S64x16x16384_S1024x16384 : S64x16x16384.ShapeCasts S1024x16384
  bcast_S1024x16384_S1024x16384x1_0_1 : S1024x16384.BroadcastsInDim S1024x16384x1 (![0, 1] : Fin 2 → Fin S1024x16384x1.rank)
  bcast_S1024x2_S1024x1x2_0_2 : S1024x2.BroadcastsInDim S1024x1x2 (![0, 2] : Fin 2 → Fin S1024x1x2.rank)
  bcast_S1024x1x2_S1024x16384x2_0_1_2 : S1024x1x2.BroadcastsInDim S1024x16384x2 (![0, 1, 2] : Fin 3 → Fin S1024x16384x2.rank)
  bcast_S_S1024x16384x2 : S_.BroadcastsInDim S1024x16384x2 (![] : Fin 0 → Fin S1024x16384x2.rank)
  bcast_S1024x1_S1024x1x1_0_2 : S1024x1.BroadcastsInDim S1024x1x1 (![0, 2] : Fin 2 → Fin S1024x1x1.rank)
  bcast_S1024x1x1_S1024x16384x1_0_1_2 : S1024x1x1.BroadcastsInDim S1024x16384x1 (![0, 1, 2] : Fin 3 → Fin S1024x16384x1.rank)
  shapeCasts_S1024x16384x1_S1024x16384 : S1024x16384x1.ShapeCasts S1024x16384
  shapeCasts_S1024x16384_S64x16x16384 : S1024x16384.ShapeCasts S64x16x16384
  reducesTo_S64x16x16384_S16x16384_d0 : S64x16x16384.ReducesTo [0] S16x16384
  transposes_S16x16384_S16384x16_1_0 : S16x16384.Transposes [1, 0] S16384x16
  dot_S4096x16384x1_S4096x2x1_S4096x16384x2_2_2_1_1_0_0_wf : DotDims.WF S4096x16384x1 S4096x2x1 S4096x16384x2 [2] [2] [1] [1] [0] [0]
  dot_S4096x16384x2_S4096x2x2_S4096x16384x2_2_2_1_1_0_0_wf : DotDims.WF S4096x16384x2 S4096x2x2 S4096x16384x2 [2] [2] [1] [1] [0] [0]
  dot_S4096x16384x2_S4096x1x2_S4096x16384x1_2_2_1_1_0_0_wf : DotDims.WF S4096x16384x2 S4096x1x2 S4096x16384x1 [2] [2] [1] [1] [0] [0]
  dot_S1024x16384x1_S1024x2x1_S1024x16384x2_2_2_1_1_0_0_wf : DotDims.WF S1024x16384x1 S1024x2x1 S1024x16384x2 [2] [2] [1] [1] [0] [0]
  dot_S1024x16384x2_S1024x2x2_S1024x16384x2_2_2_1_1_0_0_wf : DotDims.WF S1024x16384x2 S1024x2x2 S1024x16384x2 [2] [2] [1] [1] [0] [0]
  dot_S1024x16384x2_S1024x1x2_S1024x16384x1_2_2_1_1_0_0_wf : DotDims.WF S1024x16384x2 S1024x1x2 S1024x16384x1 [2] [2] [1] [1] [0] [0]

variable [Facts₀]

def dot_S4096x16384x1_S4096x2x1_S4096x16384x2_2_2_1_1_0_0 : DotDims S4096x16384x1 S4096x2x1 S4096x16384x2 where
  lhsContracting := [2]
  rhsContracting := [2]
  lhsNonContracting := [1]
  rhsNonContracting := [1]
  lhsBatch := [0]
  rhsBatch := [0]
  wf := dot_S4096x16384x1_S4096x2x1_S4096x16384x2_2_2_1_1_0_0_wf
def dot_S4096x16384x2_S4096x2x2_S4096x16384x2_2_2_1_1_0_0 : DotDims S4096x16384x2 S4096x2x2 S4096x16384x2 where
  lhsContracting := [2]
  rhsContracting := [2]
  lhsNonContracting := [1]
  rhsNonContracting := [1]
  lhsBatch := [0]
  rhsBatch := [0]
  wf := dot_S4096x16384x2_S4096x2x2_S4096x16384x2_2_2_1_1_0_0_wf
def dot_S4096x16384x2_S4096x1x2_S4096x16384x1_2_2_1_1_0_0 : DotDims S4096x16384x2 S4096x1x2 S4096x16384x1 where
  lhsContracting := [2]
  rhsContracting := [2]
  lhsNonContracting := [1]
  rhsNonContracting := [1]
  lhsBatch := [0]
  rhsBatch := [0]
  wf := dot_S4096x16384x2_S4096x1x2_S4096x16384x1_2_2_1_1_0_0_wf
def dot_S1024x16384x1_S1024x2x1_S1024x16384x2_2_2_1_1_0_0 : DotDims S1024x16384x1 S1024x2x1 S1024x16384x2 where
  lhsContracting := [2]
  rhsContracting := [2]
  lhsNonContracting := [1]
  rhsNonContracting := [1]
  lhsBatch := [0]
  rhsBatch := [0]
  wf := dot_S1024x16384x1_S1024x2x1_S1024x16384x2_2_2_1_1_0_0_wf
def dot_S1024x16384x2_S1024x2x2_S1024x16384x2_2_2_1_1_0_0 : DotDims S1024x16384x2 S1024x2x2 S1024x16384x2 where
  lhsContracting := [2]
  rhsContracting := [2]
  lhsNonContracting := [1]
  rhsNonContracting := [1]
  lhsBatch := [0]
  rhsBatch := [0]
  wf := dot_S1024x16384x2_S1024x2x2_S1024x16384x2_2_2_1_1_0_0_wf
def dot_S1024x16384x2_S1024x1x2_S1024x16384x1_2_2_1_1_0_0 : DotDims S1024x16384x2 S1024x1x2 S1024x16384x1 where
  lhsContracting := [2]
  rhsContracting := [2]
  lhsNonContracting := [1]
  rhsNonContracting := [1]
  lhsBatch := [0]
  rhsBatch := [0]
  wf := dot_S1024x16384x2_S1024x1x2_S1024x16384x1_2_2_1_1_0_0_wf

class Facts : Prop extends Facts₀ where

variable [Facts]
-- ==== Proof.LibLayout.lean ====
import Idealize.ShloMosaic.Lib.Pipeline.Value
import Idealize.ShloMosaic.Lib.ValueIdx
import Idealize.ShloMosaic.Lib.ValueLayout

/-! # Shape casts and broadcasts read at an index, by coordinates

A shape cast reads the operand at the index with the same row-major position; a broadcast reads it at the same
coordinates, `0` on the operand's unit axes. Each statement names both indices by their coordinates, at any extents:
casts that add unit axes, casts that merge the leading axes into one or split one into several, and broadcasts along
unit axes. -/

namespace Cert.LibLayout

open Idealize.ShloMosaic Idealize.ShloMosaic.ValueIdx
variable {α : Type}

/-! ## Unit axes added by a shape cast -/

/-- An `[a, b, c]` array cast to `[a, 1, b, c]`. -/
theorem shapeCast_abc_a1bc_apply {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu]; simp only [Nat.mul_one, Nat.add_zero, Nat.zero_mul, Nat.zero_add])

/-- An `[a, b]` array cast to `[1, 1, a, b]`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp only [Nat.mul_one, Nat.add_zero, Nat.zero_mul, Nat.zero_add])

/-- An `[a]` array cast to `[1, 1, 1, a]`. -/
theorem shapeCast_a_111a_apply {a : ℕ} (x : (⟨1, ![a]⟩ : Shape).Idx → α)
    (h : (⟨1, ![a]⟩ : Shape).ShapeCasts ⟨4, ![1, 1, 1, a]⟩) (u v w : Fin 1) (i : Fin a) :
    shapeCast ⟨4, ![1, 1, 1, a]⟩ x h (ix4 u v w i) = x (ix1 i) :=
  shapeCast_apply x h _ _ (by
    have hu : u.val = 0 := by omega
    have hv : v.val = 0 := by omega
    have hw : w.val = 0 := by omega
    rw [Shape.rowMajor_val_one, Shape.rowMajor_val_four]
    show i.val = ((u.val * 1 + v.val) * 1 + w.val) * a + i.val
    rw [hu, hv, hw]; simp only [Nat.mul_one, Nat.add_zero, Nat.zero_mul, Nat.zero_add])

/-- An `[a]` array cast to `[1, 1, a]`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    rw [hu, hv]; simp only [Nat.mul_one, Nat.add_zero, Nat.zero_mul, Nat.zero_add])

/-- An `[a, b, c]` array cast to `[a, b, c, 1]`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu]; simp only [Nat.mul_one, Nat.add_zero, Nat.zero_mul, Nat.zero_add])

/-- An `[a, b]` array cast to `[a, 1, b]`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu]; simp only [Nat.mul_one, Nat.add_zero, Nat.zero_mul, Nat.zero_add])

/-- An `[a, b]` array cast to `[a, b, 1]`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu]; simp only [Nat.mul_one, Nat.add_zero, Nat.zero_mul, Nat.zero_add])

/-! ## Leading axes merged into one, or one split into several -/

/-- An `[a, b, c, d]` array cast to `[n, d]` (the three leading axes merged): row `r` is the leading coordinates' row-major position. -/
theorem shapeCast_abcd_nd_apply {a b c d n : ℕ} (x : (⟨4, ![a, b, c, d]⟩ : Shape).Idx → α)
    (h : (⟨4, ![a, b, c, d]⟩ : Shape).ShapeCasts ⟨2, ![n, d]⟩) (i : Fin a) (j : Fin b) (k : Fin c) (l : Fin d) (r : Fin n) (hr : r.val = (i.val * b + j.val) * c + k.val) :
    shapeCast ⟨2, ![n, d]⟩ x h (ix2 r l) = x (ix4 i j k l) :=
  shapeCast_apply x h _ _ (by
    rw [Shape.rowMajor_val_four, Shape.rowMajor_val_two]
    show ((i.val * b + j.val) * c + k.val) * d + l.val = r.val * d + l.val
    rw [hr])

/-- An `[n, d]` array cast to `[a, b, c, d]` (the leading axis split in three). -/
theorem shapeCast_nd_abcd_apply {a b c d n : ℕ} (x : (⟨2, ![n, d]⟩ : Shape).Idx → α)
    (h : (⟨2, ![n, d]⟩ : Shape).ShapeCasts ⟨4, ![a, b, c, d]⟩) (i : Fin a) (j : Fin b) (k : Fin c) (l : Fin d) (r : Fin n) (hr : r.val = (i.val * b + j.val) * c + k.val) :
    shapeCast ⟨4, ![a, b, c, d]⟩ x h (ix4 i j k l) = x (ix2 r l) :=
  shapeCast_apply x h _ _ (by
    rw [Shape.rowMajor_val_two, Shape.rowMajor_val_four]
    show r.val * d + l.val = ((i.val * b + j.val) * c + k.val) * d + l.val
    rw [hr])

/-- An `[a, b, c]` array cast to `[n, c]` (the two leading axes merged). -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n) (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` (the leading axis split in two). -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n) (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

/-! ## Broadcasts along unit axes -/

/-- An `[a, 1, c, d]` array broadcast to `[a, b, c, d]`. -/
theorem broadcastTo_a1cd_abcd_apply {a b c d : ℕ} (x : (⟨4, ![a, 1, c, d]⟩ : Shape).Idx → α)
    (h : (⟨4, ![a, 1, c, d]⟩ : Shape).Broadcasts ⟨4, ![a, b, c, d]⟩) (i : Fin a) (j : Fin b) (k : Fin c) (l : Fin d) :
    broadcastTo ⟨4, ![a, b, c, d]⟩ x h (ix4 i j k l) = x (ix4 i (0 : Fin 1) k l) := by
  refine broadcastTo_apply x h (ix4 i j k l) (ix4 i (0 : Fin 1) k l) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, b, c, d]` array broadcast to `[a, b, c, d]`. -/
theorem broadcastTo_1bcd_abcd_apply {a b c d : ℕ} (x : (⟨4, ![1, b, c, d]⟩ : Shape).Idx → α)
    (h : (⟨4, ![1, b, c, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) j k l) := by
  refine broadcastTo_apply x h (ix4 i j k l) (ix4 (0 : Fin 1) j k l) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, 1, c, d]` array broadcast to `[a, b, c, d]`. -/
theorem broadcastTo_11cd_abcd_apply {a b c d : ℕ} (x : (⟨4, ![1, 1, c, d]⟩ : Shape).Idx → α)
    (h : (⟨4, ![1, 1, c, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) k l) := by
  refine broadcastTo_apply x h (ix4 i j k l) (ix4 (0 : Fin 1) (0 : Fin 1) k l) fun ax => ?_
  match ax with
  | ⟨0, _⟩ => rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, 1, 1, d]` array broadcast to `[a, b, c, d]`. -/
theorem broadcastTo_111d_abcd_apply {a b c d : ℕ} (x : (⟨4, ![1, 1, 1, d]⟩ : Shape).Idx → α)
    (h : (⟨4, ![1, 1, 1, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) (0 : Fin 1) l) := by
  refine broadcastTo_apply x h (ix4 i j k l) (ix4 (0 : Fin 1) (0 : Fin 1) (0 : Fin 1) l) fun ax => ?_
  match ax with
  | ⟨0, _⟩ => rfl
  | ⟨1, _⟩ => rfl
  | ⟨2, _⟩ => rfl
  | ⟨3, _⟩ =>
    show l.val = if d = 1 then 0 else l.val
    split
    · have := l.isLt; omega
    · rfl

/-- An `[a, b, c, 1]` array broadcast to `[a, b, c, d]`. -/
theorem broadcastTo_abc1_abcd_apply {a b c d : ℕ} (x : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ x h (ix4 i j k l) = x (ix4 i j k (0 : Fin 1)) := by
  refine broadcastTo_apply x h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1, c]` array broadcast to `[a, b, c]`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibLayout
-- ==== Proof.LibUnitAxesCast.lean ====
/-
  Two leading unit axes dropped by a shape cast.

  A `[1, 1, a, b]` array cast to `[a, b]` (what a kernel does with a block whose batch and head axes are squeezed)
  reads, at `(i, j)`, the operand at `(0, 0, i, j)`: both indices have the row-major position `i · b + j`.
  (The opposite cast, `[a, b]` to `[1, 1, a, b]`, is its companion among the casts that add unit axes.)
-/
import Idealize.ShloMosaic.Lib.Pipeline.Value
import Idealize.ShloMosaic.Lib.ValueIdx

namespace Cert.LibUnitAxesCast

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

end Cert.LibUnitAxesCast
-- ==== Proof.LibSumFirst3.lean ====
import Idealize.ShloMosaic.PureOps.Ideal.Laws
import Idealize.ShloMosaic.Lib.Pipeline.Value
import Idealize.ShloMosaic.Lib.ValueIdx

/-! # The sum over the leading axis of a rank-3 array, read at an index by coordinates

At exact values a vector sum-reduction over the first axis of an `[a, b, c]` array, from the zero word, is at the
result index `(j, k)` the sum over `i` of the source at `(i, j, k)`: the reduced coordinate put back in front. -/

namespace Cert.LibSumFirst3

open Idealize.ShloMosaic Idealize.ShloMosaic.ValueIdx
open scoped BigOperators

/-- The sum over the first axis of an `[a, b, c]` array, from the zero word, at `(j, k)`. -/
theorem sum_first3_apply {a b c : ℕ} (src : FVec Ideal ⟨3, ![a, b, c]⟩ .f32)
    (h : (⟨3, ![a, b, c]⟩ : Shape).Reduces [0] ⟨2, ![b, c]⟩) (hφ : FKind.Formats .f32)
    (hacc : (0x00000000#32 : BitVec 32) = 0x00000000#32) (j : Fin b) (k : Fin c) :
    multiReduction .add [0] ⟨2, ![b, c]⟩ src 0x00000000#32 h hφ hacc (ix2 j k) = ∑ i : Fin a, src (ix3 i j k) := by
  refine (Ideal.multiReduction_add_single src 0x00000000#32 h hφ hacc (ix2 j k)).trans ?_
  show ∑ i : Fin a, src (h.lift (ix2 j k) i) = _
  refine Finset.sum_congr rfl fun i _ => congrArg src (funext fun ax => Fin.ext ?_)
  match ax with
  | ⟨0, _⟩ => rfl
  | ⟨1, _⟩ => rfl
  | ⟨2, _⟩ => rfl

end Cert.LibSumFirst3
-- ==== Proof.LibLeadSlices.lean ====
import Idealize.ShloMosaic.Lib.Pipeline.Value
import Idealize.ShloMosaic.Lib.ValueIdx

/-! # One slab of a stack, read at an index by coordinates

A stack of matrices `[n, a, b]` sliced to its slab `o` (a unit-stride slice of extent one along the leading axis,
whole along the others) reads, at `(0, i, j)`, the stack at `(o, i, j)`; likewise a doubly indexed stack
`[n0, n1, a, b]` sliced to its slab `(o0, o1)`. The slab's number is passed as an element `k` of the leading extent
together with `k = o`, so that the literal offsets a kernel prints can be matched. -/

namespace Cert.LibLeadSlices

open Idealize.ShloMosaic Idealize.ShloMosaic.ValueIdx

variable {α : Type}

/-- Slab `k` of an `[n, a, b]` stack, as a `[1, a, b]` slice, at `(u, i, j)`. -/
theorem slab3_apply {n a b : ℕ} (o : ℕ) (k : Fin n) (hk : k.val = o) (X : (⟨3, ![n, a, b]⟩ : Shape).Idx → α)
    (h : (⟨3, ![n, a, b]⟩ : Shape).Slices ![o, 0, 0] ⟨3, ![1, a, b]⟩) (u : Fin 1) (i : Fin a) (j : Fin b) :
    extractStridedSlice ⟨3, ![1, a, b]⟩ ![o, 0, 0] X h (ix3 u i j) = X (ix3 k i j) :=
  extractStridedSlice_apply _ _ _ _ _ (fun ax => by
    have hu : u.val = 0 := by omega
    match ax with
    | ⟨0, _⟩ => show k.val = o + u.val; omega
    | ⟨1, _⟩ => show i.val = 0 + i.val; omega
    | ⟨2, _⟩ => show j.val = 0 + j.val; omega)

/-- Slab `(k, l)` of an `[n0, n1, a, b]` stack, as a `[1, 1, a, b]` slice, at `(u, v, i, j)`. -/
theorem slab4_apply {n0 n1 a b : ℕ} (o0 o1 : ℕ) (k : Fin n0) (l : Fin n1) (hk : k.val = o0) (hl : l.val = o1)
    (X : (⟨4, ![n0, n1, a, b]⟩ : Shape).Idx → α)
    (h : (⟨4, ![n0, n1, a, b]⟩ : Shape).Slices ![o0, o1, 0, 0] ⟨4, ![1, 1, a, b]⟩) (u v : Fin 1) (i : Fin a) (j : Fin b) :
    extractStridedSlice ⟨4, ![1, 1, a, b]⟩ ![o0, o1, 0, 0] X h (ix4 u v i j) = X (ix4 k l i j) :=
  extractStridedSlice_apply _ _ _ _ _ (fun ax => by
    have hu : u.val = 0 := by omega
    have hv : v.val = 0 := by omega
    match ax with
    | ⟨0, _⟩ => show k.val = o0 + u.val; omega
    | ⟨1, _⟩ => show l.val = o1 + v.val; omega
    | ⟨2, _⟩ => show i.val = 0 + i.val; omega
    | ⟨3, _⟩ => show j.val = 0 + j.val; omega)

end Cert.LibLeadSlices
-- ==== Proof.Subnet.lean ====
import Idealize.ShloMosaic.PureOps.Ideal
import Idealize.ShloMosaic.Lib.ValueIdx

/-! # The specification: two layers of per-edge networks, summed over the input channels

Every (input channel, output channel) pair of a layer — an EDGE — carries its own tiny network of widths
1 → 2 → 2 → 1 with a rectifier after the first two affine maps. A layer's output channel is the sum of its edges'
networks over the input channels, each applied to that input channel's value. The parameter arrays list the edges in
row-major order of (input channel, output channel): edge `(j, i)` of the first layer (64 → 64) is row `j · 64 + i`,
edge `(i, o)` of the second (64 → 16) is row `i · 16 + o`. The result at batch row `b` and output channel `o` is the
second layer applied to the first layer's 64 hidden channels at `b`. Everything is on the extended reals. -/

noncomputable section

namespace Cert.Kan

open Idealize.ShloMosaic Idealize.ShloMosaic.ValueIdx
open scoped BigOperators

/-- The network of one edge at the input `x`, from its fourteen numbers:
    `h1 k = max (x · w1 k + b1 k) 0`, `h2 k = max (h1 0 · w2 k 0 + h1 1 · w2 k 1 + b2 k) 0`,
    result `h2 0 · w3 0 + h2 1 · w3 1 + b3`. -/
def subnet (w1 b1 : Fin 2 → EReal) (w2 : Fin 2 → Fin 2 → EReal) (b2 w3 : Fin 2 → EReal) (b3 x : EReal) : EReal :=
  max (max (x * w1 0 + b1 0) 0 * w2 0 0 + max (x * w1 1 + b1 1) 0 * w2 0 1 + b2 0) 0 * w3 0
    + max (max (x * w1 0 + b1 0) 0 * w2 1 0 + max (x * w1 1 + b1 1) 0 * w2 1 1 + b2 1) 0 * w3 1
    + b3

/-- Row of the first layer's edge from input channel `j` to hidden channel `i`. -/
def edge0 (j i : Fin 64) : Fin 4096 := ⟨j.val * 64 + i.val, by have := j.isLt; have := i.isLt; omega⟩

/-- Row of the second layer's edge from hidden channel `i` to output channel `o`. -/
def edge1 (i : Fin 64) (o : Fin 16) : Fin 1024 := ⟨i.val * 16 + o.val, by have := i.isLt; have := o.isLt; omega⟩

/-- The network of the edge in row `n` of a layer's six parameter arrays. -/
def edgeNet {N : ℕ} (W1 : (⟨3, ![N, 2, 1]⟩ : Shape).Idx → EReal) (b1 : (⟨2, ![N, 2]⟩ : Shape).Idx → EReal)
    (W2 : (⟨3, ![N, 2, 2]⟩ : Shape).Idx → EReal) (b2 : (⟨2, ![N, 2]⟩ : Shape).Idx → EReal)
    (W3 : (⟨3, ![N, 1, 2]⟩ : Shape).Idx → EReal) (b3 : (⟨2, ![N, 1]⟩ : Shape).Idx → EReal) (n : Fin N) (x : EReal) : EReal :=
  subnet (fun k => W1 (ix3 n k (0 : Fin 1))) (fun k => b1 (ix2 n k)) (fun k h => W2 (ix3 n k h)) (fun k => b2 (ix2 n k))
    (fun k => W3 (ix3 n (0 : Fin 1) k)) (b3 (ix2 n (0 : Fin 1))) x

/-- Hidden channel `i` at batch row `b`: the first layer. -/
def hiddenVal (x : (⟨2, ![16384, 64]⟩ : Shape).Idx → EReal)
    (W1 : (⟨3, ![4096, 2, 1]⟩ : Shape).Idx → EReal) (b1 : (⟨2, ![4096, 2]⟩ : Shape).Idx → EReal)
    (W2 : (⟨3, ![4096, 2, 2]⟩ : Shape).Idx → EReal) (b2 : (⟨2, ![4096, 2]⟩ : Shape).Idx → EReal)
    (W3 : (⟨3, ![4096, 1, 2]⟩ : Shape).Idx → EReal) (b3 : (⟨2, ![4096, 1]⟩ : Shape).Idx → EReal)
    (i : Fin 64) (b : Fin 16384) : EReal :=
  ∑ j : Fin 64, edgeNet W1 b1 W2 b2 W3 b3 (edge0 j i) (x (ix2 b j))

/-- Output channel `o` at batch row `b`: the second layer over the hidden channels. -/
def outputVal (x : (⟨2, ![16384, 64]⟩ : Shape).Idx → EReal)
    (W1 : (⟨3, ![4096, 2, 1]⟩ : Shape).Idx → EReal) (b1 : (⟨2, ![4096, 2]⟩ : Shape).Idx → EReal)
    (W2 : (⟨3, ![4096, 2, 2]⟩ : Shape).Idx → EReal) (b2 : (⟨2, ![4096, 2]⟩ : Shape).Idx → EReal)
    (W3 : (⟨3, ![4096, 1, 2]⟩ : Shape).Idx → EReal) (b3 : (⟨2, ![4096, 1]⟩ : Shape).Idx → EReal)
    (V1 : (⟨3, ![1024, 2, 1]⟩ : Shape).Idx → EReal) (c1 : (⟨2, ![1024, 2]⟩ : Shape).Idx → EReal)
    (V2 : (⟨3, ![1024, 2, 2]⟩ : Shape).Idx → EReal) (c2 : (⟨2, ![1024, 2]⟩ : Shape).Idx → EReal)
    (V3 : (⟨3, ![1024, 1, 2]⟩ : Shape).Idx → EReal) (c3 : (⟨2, ![1024, 1]⟩ : Shape).Idx → EReal)
    (b : Fin 16384) (o : Fin 16) : EReal :=
  ∑ i : Fin 64, edgeNet V1 c1 V2 c2 V3 c3 (edge1 i o) (hiddenVal x W1 b1 W2 b2 W3 b3 i b)

/-- The whole result array `[16384, 16]`. -/
def result (x : (⟨2, ![16384, 64]⟩ : Shape).Idx → EReal)
    (W1 : (⟨3, ![4096, 2, 1]⟩ : Shape).Idx → EReal) (b1 : (⟨2, ![4096, 2]⟩ : Shape).Idx → EReal)
    (W2 : (⟨3, ![4096, 2, 2]⟩ : Shape).Idx → EReal) (b2 : (⟨2, ![4096, 2]⟩ : Shape).Idx → EReal)
    (W3 : (⟨3, ![4096, 1, 2]⟩ : Shape).Idx → EReal) (b3 : (⟨2, ![4096, 1]⟩ : Shape).Idx → EReal)
    (V1 : (⟨3, ![1024, 2, 1]⟩ : Shape).Idx → EReal) (c1 : (⟨2, ![1024, 2]⟩ : Shape).Idx → EReal)
    (V2 : (⟨3, ![1024, 2, 2]⟩ : Shape).Idx → EReal) (c2 : (⟨2, ![1024, 2]⟩ : Shape).Idx → EReal)
    (V3 : (⟨3, ![1024, 1, 2]⟩ : Shape).Idx → EReal) (c3 : (⟨2, ![1024, 1]⟩ : Shape).Idx → EReal) :
    (⟨2, ![16384, 16]⟩ : Shape).Idx → EReal :=
  fun idx => outputVal x W1 b1 W2 b2 W3 b3 V1 c1 V2 c2 V3 c3 (idx 0) (idx 1)

end Cert.Kan

end
-- ==== Proof.Body.lean ====
import proofs.«121321_j71794673320509_2_alg».proof.Proof.Gen.KernelIdeal.Frame
import proofs.«121321_j71794673320509_2_alg».proof.Proof.LibLayout
import proofs.«121321_j71794673320509_2_alg».proof.Proof.LibUnitAxesCast
import proofs.«121321_j71794673320509_2_alg».proof.Proof.LibSumFirst3
import proofs.«121321_j71794673320509_2_alg».proof.Proof.LibLeadSlices
import proofs.«121321_j71794673320509_2_alg».proof.Proof.Subnet
import Idealize.ShloMosaic.Lib.ValueLayout
import Idealize.ShloMosaic.PureOps.Ideal.Laws

/-! # The kernel's body, one layer at a time, read at an index

Inside a block the batch runs along the lanes `q`. A layer forms the cube whose entry `(j, i, q)` is the network of edge
`(j, i)` at the layer's input `(j, q)` and sums it over the input channel `j`: its output at `(i, q)` is
`∑ j, subnet (the edge's numbers) (input (j, q))`. The edge's numbers are read from the re-laid parameter blocks:
slab `k` of a `[2, IN, OUT]` block at `(j, i)` is unit `k`'s number, slab `(k, h)` of the `[2, 2, IN, OUT]` block the
second map's weight from unit `h` into unit `k`. -/

noncomputable section

namespace Cert.KanBody

open Idealize.ShloMosaic Idealize.ShloMosaic.ValueIdx Cert.KernelIdeal Cert.KernelIdeal.Gen Cert.Kan
open Cert.LibLayout Cert.LibUnitAxesCast Cert.LibSumFirst3 Cert.LibLeadSlices
open scoped BigOperators

/-- The first layer (64 → 64) at hidden channel `i` and lane `q`. -/
theorem hidden_apply (x0 : Vec Ideal S64x256 .f32) (x1 x2 : Vec Ideal S2x64x64 .f32) (x3 : Vec Ideal S2x2x64x64 .f32)
    (x4 x5 : Vec Ideal S2x64x64 .f32) (x6 : Vec Ideal S64x64 .f32) (i : Fin 64) (q : Fin 256) :
    k0_pay12 (k0_pay4 x3) (k0_pay5 x4) (k0_pay6 x5) (k0_pay7 x6) (k0_pay9 x0 x1 x2) (k0_pay10 x0 x1) (k0_pay11 x2) (ix2 i q)
      = ∑ j : Fin 64, subnet (fun k => x1 (ix3 k j i)) (fun k => x2 (ix3 k j i)) (fun k h => x3 (ix4 k h j i))
          (fun k => x4 (ix3 k j i)) (fun k => x5 (ix3 k j i)) (x6 (ix2 j i)) (x0 (ix2 j q)) := by
  unfold k0_pay12
  refine (sum_first3_apply _ _ _ _ i q).trans ?_
  refine Finset.sum_congr rfl fun j _ => ?_
  simp only [k0_pay2, k0_pay3, k0_pay4, k0_pay5, k0_pay6, k0_pay7, k0_pay8, k0_pay9, k0_pay10, k0_pay11, shapeCast_self,
    addf_apply, mulf_apply, maximumf_apply, broadcast_apply,
    broadcastTo_ab1_abc_apply, broadcastTo_a1c_abc_apply, shapeCast_ab_ab1_apply, shapeCast_ab_a1b_apply,
    shapeCast_1ab_ab_apply, shapeCast_11ab_ab_apply,
    slab3_apply 0 (0 : Fin 2) rfl, slab3_apply 1 (1 : Fin 2) rfl,
    slab4_apply 0 0 (0 : Fin 2) (0 : Fin 2) rfl rfl, slab4_apply 0 1 (0 : Fin 2) (1 : Fin 2) rfl rfl,
    slab4_apply 1 0 (1 : Fin 2) (0 : Fin 2) rfl rfl, slab4_apply 1 1 (1 : Fin 2) (1 : Fin 2) rfl rfl,
    Ideal.ofBits_def, Ideal.ofBits_zero_f32]
  rfl

/-- The second layer (64 → 16) at output channel `o` and lane `q`, from the hidden block `h`. -/
theorem out_apply (h : FVec Ideal S64x256 .f32) (x7 x8 : Vec Ideal S2x64x16 .f32) (x9 : Vec Ideal S2x2x64x16 .f32)
    (x10 x11 : Vec Ideal S2x64x16 .f32) (x12 : Vec Ideal S64x16 .f32) (o : Fin 16) (q : Fin 256) :
    k0_pay1 (k0_pay15 x9) (k0_pay16 x10) (k0_pay17 x11) (k0_pay18 x12) (k0_pay20 h x7 x8) (k0_pay21 h x7 x8) (k0_pay22 x9) (ix2 o q)
      = ∑ i : Fin 64, subnet (fun k => x7 (ix3 k i o)) (fun k => x8 (ix3 k i o)) (fun k l => x9 (ix4 k l i o))
          (fun k => x10 (ix3 k i o)) (fun k => x11 (ix3 k i o)) (x12 (ix2 i o)) (h (ix2 i q)) := by
  unfold k0_pay1
  refine (sum_first3_apply _ _ _ _ o q).trans ?_
  refine Finset.sum_congr rfl fun i _ => ?_
  simp only [k0_pay13, k0_pay14, k0_pay15, k0_pay16, k0_pay17, k0_pay18, k0_pay19, k0_pay20, k0_pay21, k0_pay22, shapeCast_self,
    addf_apply, mulf_apply, maximumf_apply, broadcast_apply,
    broadcastTo_ab1_abc_apply, broadcastTo_a1c_abc_apply, shapeCast_ab_ab1_apply, shapeCast_ab_a1b_apply,
    shapeCast_1ab_ab_apply, shapeCast_11ab_ab_apply,
    slab3_apply 0 (0 : Fin 2) rfl, slab3_apply 1 (1 : Fin 2) rfl,
    slab4_apply 0 0 (0 : Fin 2) (0 : Fin 2) rfl rfl, slab4_apply 0 1 (0 : Fin 2) (1 : Fin 2) rfl rfl,
    slab4_apply 1 0 (1 : Fin 2) (0 : Fin 2) rfl rfl, slab4_apply 1 1 (1 : Fin 2) (1 : Fin 2) rfl rfl,
    Ideal.ofBits_def, Ideal.ofBits_zero_f32]
  rfl

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- What the body leaves in the output block, at output channel `o` and lane `q`, from the thirteen input blocks:
    the second layer's edges over the first layer's hidden channels at that lane. -/
theorem body_apply (x0 : Vec Ideal S64x256 .f32) (x1 x2 : Vec Ideal S2x64x64 .f32) (x3 : Vec Ideal S2x2x64x64 .f32)
    (x4 x5 : Vec Ideal S2x64x64 .f32) (x6 : Vec Ideal S64x64 .f32) (x7 x8 : Vec Ideal S2x64x16 .f32)
    (x9 : Vec Ideal S2x2x64x16 .f32) (x10 x11 : Vec Ideal S2x64x16 .f32) (x12 : Vec Ideal S64x16 .f32)
    (o : Fin 16) (q : Fin 256) :
    out0_13 x0 x1 x2 x3 x4 x5 x6 x7 x8 x9 x10 x11 x12 (ix2 o q)
      = ∑ i : Fin 64, subnet (fun k => x7 (ix3 k i o)) (fun k => x8 (ix3 k i o)) (fun k l => x9 (ix4 k l i o))
          (fun k => x10 (ix3 k i o)) (fun k => x11 (ix3 k i o)) (x12 (ix2 i o))
          (∑ j : Fin 64, subnet (fun k => x1 (ix3 k j i)) (fun k => x2 (ix3 k j i)) (fun k l => x3 (ix4 k l j i))
            (fun k => x4 (ix3 k j i)) (fun k => x5 (ix3 k j i)) (x6 (ix2 j i)) (x0 (ix2 j q))) := by
  unfold out0_13
  rw [View.canon_unit_zero zero2]
  simp only [View.ld_unit_zero (S := S64x256) zero2, View.ld_unit_zero (S := S2x64x64) zero3,
    View.ld_unit_zero (S := S2x2x64x64) zero4, View.ld_unit_zero (S := S64x64) zero2,
    View.ld_unit_zero (S := S2x64x16) zero3, View.ld_unit_zero (S := S2x2x64x16) zero4,
    View.ld_unit_zero (S := S64x16) zero2]
  rw [out_apply]
  refine Finset.sum_congr rfl fun i _ => ?_
  rw [hidden_apply]

end Cert.KanBody

end
-- ==== Proof.Point.lean ====
import proofs.«121321_j71794673320509_2_alg».proof.Proof.Body

/-! # One grid point's output block is a block of the specification

If the input block holds 256 consecutive batch rows of the input, transposed (lane `q` of channel `j` is the input at
`(b, j)`), and the twelve parameter blocks hold the edges' numbers re-laid (`(k, j, i)` of a first-layer block is
number `k` of edge `(j, i)`, and likewise for the second layer), then the body's output block holds, at `(o, q)`, the
specification's output channel `o` at batch row `b`. -/

noncomputable section

namespace Cert.KanBody

open Idealize.ShloMosaic Idealize.ShloMosaic.ValueIdx Cert.KernelIdeal Cert.KernelIdeal.Gen Cert.Kan
open scoped BigOperators

theorem point_eq (x0 : Vec Ideal S64x256 .f32) (x1 x2 : Vec Ideal S2x64x64 .f32) (x3 : Vec Ideal S2x2x64x64 .f32)
    (x4 x5 : Vec Ideal S2x64x64 .f32) (x6 : Vec Ideal S64x64 .f32) (x7 x8 : Vec Ideal S2x64x16 .f32)
    (x9 : Vec Ideal S2x2x64x16 .f32) (x10 x11 : Vec Ideal S2x64x16 .f32) (x12 : Vec Ideal S64x16 .f32)
    (X : (⟨2, ![16384, 64]⟩ : Shape).Idx → EReal)
    (W1 : (⟨3, ![4096, 2, 1]⟩ : Shape).Idx → EReal) (b1 : (⟨2, ![4096, 2]⟩ : Shape).Idx → EReal)
    (W2 : (⟨3, ![4096, 2, 2]⟩ : Shape).Idx → EReal) (b2 : (⟨2, ![4096, 2]⟩ : Shape).Idx → EReal)
    (W3 : (⟨3, ![4096, 1, 2]⟩ : Shape).Idx → EReal) (b3 : (⟨2, ![4096, 1]⟩ : Shape).Idx → EReal)
    (V1 : (⟨3, ![1024, 2, 1]⟩ : Shape).Idx → EReal) (c1 : (⟨2, ![1024, 2]⟩ : Shape).Idx → EReal)
    (V2 : (⟨3, ![1024, 2, 2]⟩ : Shape).Idx → EReal) (c2 : (⟨2, ![1024, 2]⟩ : Shape).Idx → EReal)
    (V3 : (⟨3, ![1024, 1, 2]⟩ : Shape).Idx → EReal) (c3 : (⟨2, ![1024, 1]⟩ : Shape).Idx → EReal)
    (rowOf : Fin 256 → Fin 16384)
    (h0 : ∀ (j : Fin 64) (q : Fin 256), x0 (ix2 j q) = X (ix2 (rowOf q) j))
    (h1 : ∀ (k : Fin 2) (j i : Fin 64), x1 (ix3 k j i) = W1 (ix3 (edge0 j i) k (0 : Fin 1)))
    (h2 : ∀ (k : Fin 2) (j i : Fin 64), x2 (ix3 k j i) = b1 (ix2 (edge0 j i) k))
    (h3 : ∀ (k l : Fin 2) (j i : Fin 64), x3 (ix4 k l j i) = W2 (ix3 (edge0 j i) k l))
    (h4 : ∀ (k : Fin 2) (j i : Fin 64), x4 (ix3 k j i) = b2 (ix2 (edge0 j i) k))
    (h5 : ∀ (k : Fin 2) (j i : Fin 64), x5 (ix3 k j i) = W3 (ix3 (edge0 j i) (0 : Fin 1) k))
    (h6 : ∀ (j i : Fin 64), x6 (ix2 j i) = b3 (ix2 (edge0 j i) (0 : Fin 1)))
    (h7 : ∀ (k : Fin 2) (i : Fin 64) (o : Fin 16), x7 (ix3 k i o) = V1 (ix3 (edge1 i o) k (0 : Fin 1)))
    (h8 : ∀ (k : Fin 2) (i : Fin 64) (o : Fin 16), x8 (ix3 k i o) = c1 (ix2 (edge1 i o) k))
    (h9 : ∀ (k l : Fin 2) (i : Fin 64) (o : Fin 16), x9 (ix4 k l i o) = V2 (ix3 (edge1 i o) k l))
    (h10 : ∀ (k : Fin 2) (i : Fin 64) (o : Fin 16), x10 (ix3 k i o) = c2 (ix2 (edge1 i o) k))
    (h11 : ∀ (k : Fin 2) (i : Fin 64) (o : Fin 16), x11 (ix3 k i o) = V3 (ix3 (edge1 i o) (0 : Fin 1) k))
    (h12 : ∀ (i : Fin 64) (o : Fin 16), x12 (ix2 i o) = c3 (ix2 (edge1 i o) (0 : Fin 1)))
    (o : Fin 16) (q : Fin 256) :
    out0_13 x0 x1 x2 x3 x4 x5 x6 x7 x8 x9 x10 x11 x12 (ix2 o q)
      = outputVal X W1 b1 W2 b2 W3 b3 V1 c1 V2 c2 V3 c3 (rowOf q) o := by
  rw [body_apply]
  unfold outputVal hiddenVal edgeNet
  simp only [h0, h1, h2, h3, h4, h5, h6, h7, h8, h9, h10, h11, h12]

end Cert.KanBody

end
-- ==== Proof.LibEdgeTables.lean ====
import Idealize.ShloMosaic.Lib.Pipeline.Value
import Idealize.ShloMosaic.Lib.ValueIdx

/-! # Per-row tables re-laid with the small axes in front

A table with one row per pair `(j, i)`, the pairs in row-major order (row `n = j · B + i` of `N` rows), is re-laid for a
kernel by splitting the rows into `[A, B]` and moving the small trailing axes to the front. Read at coordinates:

* `[N, 2]` split to `[A, B, 2]` and permuted to `[2, A, B]` reads, at `(k, j, i)`, the table at `(n, k)`;
* the same after a unit axis was dropped first, from `[N, 2, 1]` (reads `(n, k, 0)`) or `[N, 1, 2]` (reads `(n, 0, k)`);
* `[N, 2, 2]` split to `[A, B, 2, 2]` and permuted to `[2, 2, A, B]` reads, at `(k, h, j, i)`, the table at `(n, k, h)`;
* `[N, 1]` flattened to `[N]` and split to `[A, B]` reads, at `(j, i)`, the table at `(n, 0)`. -/

namespace Cert.LibEdgeTables

open Idealize.ShloMosaic Idealize.ShloMosaic.ValueIdx

variable {α : Type}

/-- `[N, 2]` → `[A, B, 2]` → `[2, A, B]`. -/
theorem relay_n2_apply {A B N : ℕ} (a : (⟨2, ![N, 2]⟩ : Shape).Idx → α)
    (h1 : (⟨2, ![N, 2]⟩ : Shape).ShapeCasts ⟨3, ![A, B, 2]⟩)
    (h2 : (⟨3, ![A, B, 2]⟩ : Shape).Transposes [2, 0, 1] ⟨3, ![2, A, B]⟩)
    (k : Fin 2) (j : Fin A) (i : Fin B) (n : Fin N) (hn : n.val = j.val * B + i.val) :
    transpose ⟨3, ![2, A, B]⟩ [2, 0, 1] (shapeCast ⟨3, ![A, B, 2]⟩ a h1) h2 (ix3 k j i) = a (ix2 n k) := by
  refine (transpose_apply [2, 0, 1] _ h2 (ix3 k j i) (ix3 j i k)
    (fun c => match c with | ⟨0, _⟩ => rfl | ⟨1, _⟩ => rfl | ⟨2, _⟩ => rfl)).trans ?_
  exact shapeCast_apply a h1 _ _ (by
    rw [Shape.rowMajor_val_two, Shape.rowMajor_val_three]
    show n.val * 2 + k.val = (j.val * B + i.val) * 2 + k.val
    rw [hn])

/-- `[N, 2, 1]` → `[N, 2]` → `[A, B, 2]` → `[2, A, B]`. -/
theorem relay_n21_apply {A B N : ℕ} (a : (⟨3, ![N, 2, 1]⟩ : Shape).Idx → α)
    (h0 : (⟨3, ![N, 2, 1]⟩ : Shape).ShapeCasts ⟨2, ![N, 2]⟩)
    (h1 : (⟨2, ![N, 2]⟩ : Shape).ShapeCasts ⟨3, ![A, B, 2]⟩)
    (h2 : (⟨3, ![A, B, 2]⟩ : Shape).Transposes [2, 0, 1] ⟨3, ![2, A, B]⟩)
    (k : Fin 2) (j : Fin A) (i : Fin B) (n : Fin N) (hn : n.val = j.val * B + i.val) :
    transpose ⟨3, ![2, A, B]⟩ [2, 0, 1] (shapeCast ⟨3, ![A, B, 2]⟩ (shapeCast ⟨2, ![N, 2]⟩ a h0) h1) h2 (ix3 k j i)
      = a (ix3 n k (0 : Fin 1)) := by
  refine (relay_n2_apply _ h1 h2 k j i n hn).trans ?_
  exact shapeCast_apply a h0 _ _ (by
    rw [Shape.rowMajor_val_two, Shape.rowMajor_val_three]
    show (n.val * 2 + k.val) * 1 + 0 = n.val * 2 + k.val
    omega)

/-- `[N, 1, 2]` → `[N, 2]` → `[A, B, 2]` → `[2, A, B]`. -/
theorem relay_n12_apply {A B N : ℕ} (a : (⟨3, ![N, 1, 2]⟩ : Shape).Idx → α)
    (h0 : (⟨3, ![N, 1, 2]⟩ : Shape).ShapeCasts ⟨2, ![N, 2]⟩)
    (h1 : (⟨2, ![N, 2]⟩ : Shape).ShapeCasts ⟨3, ![A, B, 2]⟩)
    (h2 : (⟨3, ![A, B, 2]⟩ : Shape).Transposes [2, 0, 1] ⟨3, ![2, A, B]⟩)
    (k : Fin 2) (j : Fin A) (i : Fin B) (n : Fin N) (hn : n.val = j.val * B + i.val) :
    transpose ⟨3, ![2, A, B]⟩ [2, 0, 1] (shapeCast ⟨3, ![A, B, 2]⟩ (shapeCast ⟨2, ![N, 2]⟩ a h0) h1) h2 (ix3 k j i)
      = a (ix3 n (0 : Fin 1) k) := by
  refine (relay_n2_apply _ h1 h2 k j i n hn).trans ?_
  exact shapeCast_apply a h0 _ _ (by
    rw [Shape.rowMajor_val_two, Shape.rowMajor_val_three]
    show (n.val * 1 + 0) * 2 + k.val = n.val * 2 + k.val
    omega)

/-- `[N, 2, 2]` → `[A, B, 2, 2]` → `[2, 2, A, B]`. -/
theorem relay_n22_apply {A B N : ℕ} (a : (⟨3, ![N, 2, 2]⟩ : Shape).Idx → α)
    (h1 : (⟨3, ![N, 2, 2]⟩ : Shape).ShapeCasts ⟨4, ![A, B, 2, 2]⟩)
    (h2 : (⟨4, ![A, B, 2, 2]⟩ : Shape).Transposes [2, 3, 0, 1] ⟨4, ![2, 2, A, B]⟩)
    (k h : Fin 2) (j : Fin A) (i : Fin B) (n : Fin N) (hn : n.val = j.val * B + i.val) :
    transpose ⟨4, ![2, 2, A, B]⟩ [2, 3, 0, 1] (shapeCast ⟨4, ![A, B, 2, 2]⟩ a h1) h2 (ix4 k h j i) = a (ix3 n k h) := by
  refine (transpose_apply [2, 3, 0, 1] _ h2 (ix4 k h j i) (ix4 j i k h)
    (fun c => match c with | ⟨0, _⟩ => rfl | ⟨1, _⟩ => rfl | ⟨2, _⟩ => rfl | ⟨3, _⟩ => rfl)).trans ?_
  exact shapeCast_apply a h1 _ _ (by
    rw [Shape.rowMajor_val_three, Shape.rowMajor_val_four]
    show (n.val * 2 + k.val) * 2 + h.val = ((j.val * B + i.val) * 2 + k.val) * 2 + h.val
    rw [hn])

/-- `[N, 1]` → `[N]` → `[A, B]`. -/
theorem relay_n1_apply {A B N : ℕ} (a : (⟨2, ![N, 1]⟩ : Shape).Idx → α)
    (h0 : (⟨2, ![N, 1]⟩ : Shape).ShapeCasts ⟨1, ![N]⟩) (h1 : (⟨1, ![N]⟩ : Shape).ShapeCasts ⟨2, ![A, B]⟩)
    (j : Fin A) (i : Fin B) (n : Fin N) (hn : n.val = j.val * B + i.val) :
    shapeCast ⟨2, ![A, B]⟩ (shapeCast ⟨1, ![N]⟩ a h0) h1 (ix2 j i) = a (ix2 n (0 : Fin 1)) := by
  refine (shapeCast_apply _ h1 (ix2 j i) (ix1 n) (by
    rw [Shape.rowMajor_val_one, Shape.rowMajor_val_two]
    show n.val = j.val * B + i.val
    exact hn)).trans ?_
  exact shapeCast_apply a h0 _ _ (by
    rw [Shape.rowMajor_val_two, Shape.rowMajor_val_one]
    show n.val * 1 + 0 = n.val
    omega)

end Cert.LibEdgeTables
-- ==== Proof.HostPrefix.lean ====
import proofs.«121321_j71794673320509_2_alg».proof.Proof.Gen.KernelIdeal.Frame
import proofs.«121321_j71794673320509_2_alg».proof.Proof.LibEdgeTables
import proofs.«121321_j71794673320509_2_alg».proof.Proof.Subnet
import Idealize.ShloMosaic.Lib.ValueLayout
import Idealize.ShloMosaic.Lib.StableHlo.Run

/-! # What the kernel's windows stage: the host operations before the call, at coordinates

Before the call the host re-lays each of the twelve parameter tables (rows split into `[64, OUT]`, the small axes moved
to the front) and transposes the input. Each window's array, as the call finds it, is therefore the corresponding
argument read at permuted coordinates: entry `(k, j, i)` of a re-laid first-layer table is number `k` of edge
`(j, i)` — row `j · 64 + i` of the argument —, likewise `(k, i, o)` and row `i · 16 + o` for the second layer, and
entry `(j, r)` of the transposed input is the input at `(r, j)`. -/

noncomputable section

namespace Cert.KanKernel

open Idealize.ShloMosaic Idealize.ShloMosaic.TcCoe Idealize.ShloMosaic.ValueIdx Idealize.SL.Sem
open Cert.KernelIdeal Cert.KernelIdeal.Gen Cert.Kan Cert.LibEdgeTables

variable (m : (ℓ : Loc nD τ sig) → Buf (Elt Ideal) ℓ)

/-- The array of `main_v2` as the call finds it: the host operations' term of `main_arg1`. -/
theorem V_w1_0 (c : Dev nD) : (V m c main_v2 : S2x64x64.Idx → EReal) = transpose S2x64x64 [2, 0, 1] (shapeCast S64x64x2 (shapeCast S4096x2 (m ((c : Thread nD τ).loc main_arg1)) shapeCasts_S4096x2x1_S4096x2) shapeCasts_S4096x2_S64x64x2) transposes_S64x64x2_S2x64x64_2_0_1 := by
  show StableHlo.after hostOps0 (fun b => m (c, b)) (Proc.devRef .tc main_v2) = _
  after_results; rfl

/-- … read at coordinates. -/
theorem V_w1_0_apply (c : Dev nD) (k : Fin 2) (j i : Fin 64) :
    (V m c main_v2 : S2x64x64.Idx → EReal) (ix3 k j i) = m ((c : Thread nD τ).loc main_arg1) (ix3 (edge0 j i) k (0 : Fin 1)) := by
  rw [V_w1_0]
  exact relay_n21_apply _ _ _ _ k j i (edge0 j i) rfl

/-- The array of `main_v4` as the call finds it: the host operations' term of `main_arg2`. -/
theorem V_b1_0 (c : Dev nD) : (V m c main_v4 : S2x64x64.Idx → EReal) = transpose S2x64x64 [2, 0, 1] (shapeCast S64x64x2 (m ((c : Thread nD τ).loc main_arg2)) shapeCasts_S4096x2_S64x64x2) transposes_S64x64x2_S2x64x64_2_0_1 := by
  show StableHlo.after hostOps0 (fun b => m (c, b)) (Proc.devRef .tc main_v4) = _
  after_results; rfl

/-- … read at coordinates. -/
theorem V_b1_0_apply (c : Dev nD) (k : Fin 2) (j i : Fin 64) :
    (V m c main_v4 : S2x64x64.Idx → EReal) (ix3 k j i) = m ((c : Thread nD τ).loc main_arg2) (ix2 (edge0 j i) k) := by
  rw [V_b1_0]
  exact relay_n2_apply _ _ _ k j i (edge0 j i) rfl

/-- The array of `main_v6` as the call finds it: the host operations' term of `main_arg3`. -/
theorem V_w2_0 (c : Dev nD) : (V m c main_v6 : S2x2x64x64.Idx → EReal) = transpose S2x2x64x64 [2, 3, 0, 1] (shapeCast S64x64x2x2 (m ((c : Thread nD τ).loc main_arg3)) shapeCasts_S4096x2x2_S64x64x2x2) transposes_S64x64x2x2_S2x2x64x64_2_3_0_1 := by
  show StableHlo.after hostOps0 (fun b => m (c, b)) (Proc.devRef .tc main_v6) = _
  after_results; rfl

/-- … read at coordinates. -/
theorem V_w2_0_apply (c : Dev nD) (k l : Fin 2) (j i : Fin 64) :
    (V m c main_v6 : S2x2x64x64.Idx → EReal) (ix4 k l j i) = m ((c : Thread nD τ).loc main_arg3) (ix3 (edge0 j i) k l) := by
  rw [V_w2_0]
  exact relay_n22_apply _ _ _ k l j i (edge0 j i) rfl

/-- The array of `main_v8` as the call finds it: the host operations' term of `main_arg4`. -/
theorem V_b2_0 (c : Dev nD) : (V m c main_v8 : S2x64x64.Idx → EReal) = transpose S2x64x64 [2, 0, 1] (shapeCast S64x64x2 (m ((c : Thread nD τ).loc main_arg4)) shapeCasts_S4096x2_S64x64x2) transposes_S64x64x2_S2x64x64_2_0_1 := by
  show StableHlo.after hostOps0 (fun b => m (c, b)) (Proc.devRef .tc main_v8) = _
  after_results; rfl

/-- … read at coordinates. -/
theorem V_b2_0_apply (c : Dev nD) (k : Fin 2) (j i : Fin 64) :
    (V m c main_v8 : S2x64x64.Idx → EReal) (ix3 k j i) = m ((c : Thread nD τ).loc main_arg4) (ix2 (edge0 j i) k) := by
  rw [V_b2_0]
  exact relay_n2_apply _ _ _ k j i (edge0 j i) rfl

/-- The array of `main_v11` as the call finds it: the host operations' term of `main_arg5`. -/
theorem V_w3_0 (c : Dev nD) : (V m c main_v11 : S2x64x64.Idx → EReal) = transpose S2x64x64 [2, 0, 1] (shapeCast S64x64x2 (shapeCast S4096x2 (m ((c : Thread nD τ).loc main_arg5)) shapeCasts_S4096x1x2_S4096x2) shapeCasts_S4096x2_S64x64x2) transposes_S64x64x2_S2x64x64_2_0_1 := by
  show StableHlo.after hostOps0 (fun b => m (c, b)) (Proc.devRef .tc main_v11) = _
  after_results; rfl

/-- … read at coordinates. -/
theorem V_w3_0_apply (c : Dev nD) (k : Fin 2) (j i : Fin 64) :
    (V m c main_v11 : S2x64x64.Idx → EReal) (ix3 k j i) = m ((c : Thread nD τ).loc main_arg5) (ix3 (edge0 j i) (0 : Fin 1) k) := by
  rw [V_w3_0]
  exact relay_n12_apply _ _ _ _ k j i (edge0 j i) rfl

/-- The array of `main_v13` as the call finds it: the host operations' term of `main_arg6`. -/
theorem V_b3_0 (c : Dev nD) : (V m c main_v13 : S64x64.Idx → EReal) = shapeCast S64x64 (shapeCast S4096 (m ((c : Thread nD τ).loc main_arg6)) shapeCasts_S4096x1_S4096) shapeCasts_S4096_S64x64 := by
  show StableHlo.after hostOps0 (fun b => m (c, b)) (Proc.devRef .tc main_v13) = _
  after_results; rfl

/-- … read at coordinates. -/
theorem V_b3_0_apply (c : Dev nD) (j i : Fin 64) :
    (V m c main_v13 : S64x64.Idx → EReal) (ix2 j i) = m ((c : Thread nD τ).loc main_arg6) (ix2 (edge0 j i) (0 : Fin 1)) := by
  rw [V_b3_0]
  exact relay_n1_apply _ _ _ j i (edge0 j i) rfl

/-- The array of `main_v16` as the call finds it: the host operations' term of `main_arg7`. -/
theorem V_w1_1 (c : Dev nD) : (V m c main_v16 : S2x64x16.Idx → EReal) = transpose S2x64x16 [2, 0, 1] (shapeCast S64x16x2 (shapeCast S1024x2 (m ((c : Thread nD τ).loc main_arg7)) shapeCasts_S1024x2x1_S1024x2) shapeCasts_S1024x2_S64x16x2) transposes_S64x16x2_S2x64x16_2_0_1 := by
  show StableHlo.after hostOps0 (fun b => m (c, b)) (Proc.devRef .tc main_v16) = _
  after_results; rfl

/-- … read at coordinates. -/
theorem V_w1_1_apply (c : Dev nD) (k : Fin 2) (i : Fin 64) (o : Fin 16) :
    (V m c main_v16 : S2x64x16.Idx → EReal) (ix3 k i o) = m ((c : Thread nD τ).loc main_arg7) (ix3 (edge1 i o) k (0 : Fin 1)) := by
  rw [V_w1_1]
  exact relay_n21_apply _ _ _ _ k i o (edge1 i o) rfl

/-- The array of `main_v18` as the call finds it: the host operations' term of `main_arg8`. -/
theorem V_b1_1 (c : Dev nD) : (V m c main_v18 : S2x64x16.Idx → EReal) = transpose S2x64x16 [2, 0, 1] (shapeCast S64x16x2 (m ((c : Thread nD τ).loc main_arg8)) shapeCasts_S1024x2_S64x16x2) transposes_S64x16x2_S2x64x16_2_0_1 := by
  show StableHlo.after hostOps0 (fun b => m (c, b)) (Proc.devRef .tc main_v18) = _
  after_results; rfl

/-- … read at coordinates. -/
theorem V_b1_1_apply (c : Dev nD) (k : Fin 2) (i : Fin 64) (o : Fin 16) :
    (V m c main_v18 : S2x64x16.Idx → EReal) (ix3 k i o) = m ((c : Thread nD τ).loc main_arg8) (ix2 (edge1 i o) k) := by
  rw [V_b1_1]
  exact relay_n2_apply _ _ _ k i o (edge1 i o) rfl

/-- The array of `main_v20` as the call finds it: the host operations' term of `main_arg9`. -/
theorem V_w2_1 (c : Dev nD) : (V m c main_v20 : S2x2x64x16.Idx → EReal) = transpose S2x2x64x16 [2, 3, 0, 1] (shapeCast S64x16x2x2 (m ((c : Thread nD τ).loc main_arg9)) shapeCasts_S1024x2x2_S64x16x2x2) transposes_S64x16x2x2_S2x2x64x16_2_3_0_1 := by
  show StableHlo.after hostOps0 (fun b => m (c, b)) (Proc.devRef .tc main_v20) = _
  after_results; rfl

/-- … read at coordinates. -/
theorem V_w2_1_apply (c : Dev nD) (k l : Fin 2) (i : Fin 64) (o : Fin 16) :
    (V m c main_v20 : S2x2x64x16.Idx → EReal) (ix4 k l i o) = m ((c : Thread nD τ).loc main_arg9) (ix3 (edge1 i o) k l) := by
  rw [V_w2_1]
  exact relay_n22_apply _ _ _ k l i o (edge1 i o) rfl

/-- The array of `main_v22` as the call finds it: the host operations' term of `main_arg10`. -/
theorem V_b2_1 (c : Dev nD) : (V m c main_v22 : S2x64x16.Idx → EReal) = transpose S2x64x16 [2, 0, 1] (shapeCast S64x16x2 (m ((c : Thread nD τ).loc main_arg10)) shapeCasts_S1024x2_S64x16x2) transposes_S64x16x2_S2x64x16_2_0_1 := by
  show StableHlo.after hostOps0 (fun b => m (c, b)) (Proc.devRef .tc main_v22) = _
  after_results; rfl

/-- … read at coordinates. -/
theorem V_b2_1_apply (c : Dev nD) (k : Fin 2) (i : Fin 64) (o : Fin 16) :
    (V m c main_v22 : S2x64x16.Idx → EReal) (ix3 k i o) = m ((c : Thread nD τ).loc main_arg10) (ix2 (edge1 i o) k) := by
  rw [V_b2_1]
  exact relay_n2_apply _ _ _ k i o (edge1 i o) rfl

/-- The array of `main_v25` as the call finds it: the host operations' term of `main_arg11`. -/
theorem V_w3_1 (c : Dev nD) : (V m c main_v25 : S2x64x16.Idx → EReal) = transpose S2x64x16 [2, 0, 1] (shapeCast S64x16x2 (shapeCast S1024x2 (m ((c : Thread nD τ).loc main_arg11)) shapeCasts_S1024x1x2_S1024x2) shapeCasts_S1024x2_S64x16x2) transposes_S64x16x2_S2x64x16_2_0_1 := by
  show StableHlo.after hostOps0 (fun b => m (c, b)) (Proc.devRef .tc main_v25) = _
  after_results; rfl

/-- … read at coordinates. -/
theorem V_w3_1_apply (c : Dev nD) (k : Fin 2) (i : Fin 64) (o : Fin 16) :
    (V m c main_v25 : S2x64x16.Idx → EReal) (ix3 k i o) = m ((c : Thread nD τ).loc main_arg11) (ix3 (edge1 i o) (0 : Fin 1) k) := by
  rw [V_w3_1]
  exact relay_n12_apply _ _ _ _ k i o (edge1 i o) rfl

/-- The array of `main_v27` as the call finds it: the host operations' term of `main_arg12`. -/
theorem V_b3_1 (c : Dev nD) : (V m c main_v27 : S64x16.Idx → EReal) = shapeCast S64x16 (shapeCast S1024 (m ((c : Thread nD τ).loc main_arg12)) shapeCasts_S1024x1_S1024) shapeCasts_S1024_S64x16 := by
  show StableHlo.after hostOps0 (fun b => m (c, b)) (Proc.devRef .tc main_v27) = _
  after_results; rfl

/-- … read at coordinates. -/
theorem V_b3_1_apply (c : Dev nD) (i : Fin 64) (o : Fin 16) :
    (V m c main_v27 : S64x16.Idx → EReal) (ix2 i o) = m ((c : Thread nD τ).loc main_arg12) (ix2 (edge1 i o) (0 : Fin 1)) := by
  rw [V_b3_1]
  exact relay_n1_apply _ _ _ i o (edge1 i o) rfl

/-- The array of `main_v28` as the call finds it: the host operations' term of `main_arg0`. -/
theorem V_xT (c : Dev nD) : (V m c main_v28 : S64x16384.Idx → EReal) = transpose S64x16384 [1, 0] (m ((c : Thread nD τ).loc main_arg0)) transposes_S16384x64_S64x16384_1_0 := by
  show StableHlo.after hostOps0 (fun b => m (c, b)) (Proc.devRef .tc main_v28) = _
  after_results

/-- … read at coordinates. -/
theorem V_xT_apply (c : Dev nD) (j : Fin 64) (r : Fin 16384) :
    (V m c main_v28 : S64x16384.Idx → EReal) (ix2 j r) = m ((c : Thread nD τ).loc main_arg0) (ix2 r j) := by
  rw [V_xT]
  exact transpose_ix2_apply _ _ j r

end Cert.KanKernel

end
-- ==== Proof.Blocks.lean ====
import proofs.«121321_j71794673320509_2_alg».proof.Proof.Point
import proofs.«121321_j71794673320509_2_alg».proof.Proof.HostPrefix
import Idealize.ShloMosaic.Lib.Pipeline.Value

/-! # From the grid points' blocks to the call's result array

Grid point `t` stages columns `t · 256 … t · 256 + 255` of the transposed input (batch rows, along the lanes) and the
twelve re-laid parameter tables whole, and writes back columns `t · 256 …` of the `[16, 16384]` result. With the
host's re-layout read at coordinates, each input block holds what `point_eq` asks, so the written block is a block of
ONE array: the specification's result transposed, `(o, r) ↦ outputVal … r o`. The 64 blocks tile the columns, so the
array after the call is that function. -/

noncomputable section

namespace Cert.KanKernel

open Idealize.ShloMosaic Idealize.ShloMosaic.TcCoe Idealize.ShloMosaic.ValueIdx Idealize.SL.Sem
open Cert.KernelIdeal Cert.KernelIdeal.Gen Cert.Kan Cert.KanBody
open Idealize.ShloMosaic.Pipeline (Dat)

variable (m : (ℓ : Loc nD τ sig) → Buf (Elt Ideal) ℓ)

/-- The printed index maps, decided over the 64 grid points: the input's and the result's blocks move along the
    second axis with the point, every parameter table's block is the whole table. -/
theorem idx_facts : ∀ t : Fin cfg0.N,
    win0_0.index t = ![0, t.val]
    ∧ win0_1.index t = ![0, 0, 0]
    ∧ win0_2.index t = ![0, 0, 0]
    ∧ win0_3.index t = ![0, 0, 0, 0]
    ∧ win0_4.index t = ![0, 0, 0]
    ∧ win0_5.index t = ![0, 0, 0]
    ∧ win0_6.index t = ![0, 0]
    ∧ win0_7.index t = ![0, 0, 0]
    ∧ win0_8.index t = ![0, 0, 0]
    ∧ win0_9.index t = ![0, 0, 0, 0]
    ∧ win0_10.index t = ![0, 0, 0]
    ∧ win0_11.index t = ![0, 0, 0]
    ∧ win0_12.index t = ![0, 0]
    ∧ win0_13.index t = ![0, t.val] :=
  (by decide +kernel : ∀ t : Fin grid0.N, _)

/-- The specification's result transposed: what the call's `[16, 16384]` result array holds. -/
def resultT (c : Dev nD) : S16x16384.Idx → EReal := fun idx =>
  outputVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (idx 1) (idx 0)

theorem resultT_apply (c : Dev nD) (idx : S16x16384.Idx) (r : Fin 16384) (o : Fin 16) (hr : r.val = (idx 1).val) (ho : o.val = (idx 0).val) :
    resultT m c idx = outputVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) r o := by
  obtain rfl : r = idx 1 := Fin.ext hr
  obtain rfl : o = idx 0 := Fin.ext ho
  rfl

/-! ## Each window's block at a point, read at coordinates -/

/-- The batch row that lane `q` of point `t` holds. -/
def rowAt (t : Fin cfg0.N) (q : Fin 256) : Fin 16384 :=
  ⟨t.val * 256 + q.val, by have h : t.val < 64 := lt_of_lt_of_eq t.isLt N_0; have := q.isLt; omega⟩

/-- The input block of point `t`: lane `q` of channel `j` is the input at batch row `t · 256 + q`. -/
theorem blk0 (c : Dev nD) (t : Fin cfg0.N) (j : Fin 64) (q : Fin 256) :
    iblk m c 0 t (ix2 j q) = m ((c : Thread nD τ).loc main_arg0) (ix2 (rowAt t q) j) := by
  have f := (idx_facts t).1
  have f0 : win0_0.index t (0 : Fin 2) = 0 := congrFun f 0
  have f1 : win0_0.index t (1 : Fin 2) = t.val := congrFun f 1
  have e : ((cfg0.win 0).blk t).view.emb (ix2 j q) = ix2 j (rowAt t q) := by
    funext a; apply Fin.ext
    match a with
    | ⟨0, _⟩ => show win0_0.index t (0 : Fin 2) * 64 + 1 * j.val = j.val; omega
    | ⟨1, _⟩ => show win0_0.index t (1 : Fin 2) * 256 + 1 * q.val = t.val * 256 + q.val; omega
  show (V m c main_v28 : S64x16384.Idx → EReal) (((cfg0.win 0).blk t).view.emb (ix2 j q)) = _
  rw [e]
  exact V_xT_apply m c j (rowAt t q)

/-- Window 1's block is its whole table, at every point. -/
theorem blk1 (c : Dev nD) (t : Fin cfg0.N) (k : Fin 2) (j i : Fin 64) :
    iblk m c 1 t (ix3 k j i) = m ((c : Thread nD τ).loc main_arg1) (ix3 (edge0 j i) k (0 : Fin 1)) := by
  have f := (idx_facts t).2.1
  have f0 : win0_1.index t (0 : Fin 3) = 0 := congrFun f 0
  have f1 : win0_1.index t (1 : Fin 3) = 0 := congrFun f 1
  have f2 : win0_1.index t (2 : Fin 3) = 0 := congrFun f 2
  have e : ((cfg0.win 1).blk t).view.emb (ix3 k j i) = ix3 k j i := by
    funext a; apply Fin.ext
    match a with
    | ⟨0, _⟩ => show win0_1.index t (0 : Fin 3) * 2 + 1 * k.val = k.val; omega
    | ⟨1, _⟩ => show win0_1.index t (1 : Fin 3) * 64 + 1 * j.val = j.val; omega
    | ⟨2, _⟩ => show win0_1.index t (2 : Fin 3) * 64 + 1 * i.val = i.val; omega
  show (V m c main_v2 : S2x64x64.Idx → EReal) (((cfg0.win 1).blk t).view.emb (ix3 k j i)) = _
  rw [e]
  exact V_w1_0_apply m c k j i

/-- Window 2's block is its whole table, at every point. -/
theorem blk2 (c : Dev nD) (t : Fin cfg0.N) (k : Fin 2) (j i : Fin 64) :
    iblk m c 2 t (ix3 k j i) = m ((c : Thread nD τ).loc main_arg2) (ix2 (edge0 j i) k) := by
  have f := (idx_facts t).2.2.1
  have f0 : win0_2.index t (0 : Fin 3) = 0 := congrFun f 0
  have f1 : win0_2.index t (1 : Fin 3) = 0 := congrFun f 1
  have f2 : win0_2.index t (2 : Fin 3) = 0 := congrFun f 2
  have e : ((cfg0.win 2).blk t).view.emb (ix3 k j i) = ix3 k j i := by
    funext a; apply Fin.ext
    match a with
    | ⟨0, _⟩ => show win0_2.index t (0 : Fin 3) * 2 + 1 * k.val = k.val; omega
    | ⟨1, _⟩ => show win0_2.index t (1 : Fin 3) * 64 + 1 * j.val = j.val; omega
    | ⟨2, _⟩ => show win0_2.index t (2 : Fin 3) * 64 + 1 * i.val = i.val; omega
  show (V m c main_v4 : S2x64x64.Idx → EReal) (((cfg0.win 2).blk t).view.emb (ix3 k j i)) = _
  rw [e]
  exact V_b1_0_apply m c k j i

/-- Window 3's block is its whole table, at every point. -/
theorem blk3 (c : Dev nD) (t : Fin cfg0.N) (k l : Fin 2) (j i : Fin 64) :
    iblk m c 3 t (ix4 k l j i) = m ((c : Thread nD τ).loc main_arg3) (ix3 (edge0 j i) k l) := by
  have f := (idx_facts t).2.2.2.1
  have f0 : win0_3.index t (0 : Fin 4) = 0 := congrFun f 0
  have f1 : win0_3.index t (1 : Fin 4) = 0 := congrFun f 1
  have f2 : win0_3.index t (2 : Fin 4) = 0 := congrFun f 2
  have f3 : win0_3.index t (3 : Fin 4) = 0 := congrFun f 3
  have e : ((cfg0.win 3).blk t).view.emb (ix4 k l j i) = ix4 k l j i := by
    funext a; apply Fin.ext
    match a with
    | ⟨0, _⟩ => show win0_3.index t (0 : Fin 4) * 2 + 1 * k.val = k.val; omega
    | ⟨1, _⟩ => show win0_3.index t (1 : Fin 4) * 2 + 1 * l.val = l.val; omega
    | ⟨2, _⟩ => show win0_3.index t (2 : Fin 4) * 64 + 1 * j.val = j.val; omega
    | ⟨3, _⟩ => show win0_3.index t (3 : Fin 4) * 64 + 1 * i.val = i.val; omega
  show (V m c main_v6 : S2x2x64x64.Idx → EReal) (((cfg0.win 3).blk t).view.emb (ix4 k l j i)) = _
  rw [e]
  exact V_w2_0_apply m c k l j i

/-- Window 4's block is its whole table, at every point. -/
theorem blk4 (c : Dev nD) (t : Fin cfg0.N) (k : Fin 2) (j i : Fin 64) :
    iblk m c 4 t (ix3 k j i) = m ((c : Thread nD τ).loc main_arg4) (ix2 (edge0 j i) k) := by
  have f := (idx_facts t).2.2.2.2.1
  have f0 : win0_4.index t (0 : Fin 3) = 0 := congrFun f 0
  have f1 : win0_4.index t (1 : Fin 3) = 0 := congrFun f 1
  have f2 : win0_4.index t (2 : Fin 3) = 0 := congrFun f 2
  have e : ((cfg0.win 4).blk t).view.emb (ix3 k j i) = ix3 k j i := by
    funext a; apply Fin.ext
    match a with
    | ⟨0, _⟩ => show win0_4.index t (0 : Fin 3) * 2 + 1 * k.val = k.val; omega
    | ⟨1, _⟩ => show win0_4.index t (1 : Fin 3) * 64 + 1 * j.val = j.val; omega
    | ⟨2, _⟩ => show win0_4.index t (2 : Fin 3) * 64 + 1 * i.val = i.val; omega
  show (V m c main_v8 : S2x64x64.Idx → EReal) (((cfg0.win 4).blk t).view.emb (ix3 k j i)) = _
  rw [e]
  exact V_b2_0_apply m c k j i

/-- Window 5's block is its whole table, at every point. -/
theorem blk5 (c : Dev nD) (t : Fin cfg0.N) (k : Fin 2) (j i : Fin 64) :
    iblk m c 5 t (ix3 k j i) = m ((c : Thread nD τ).loc main_arg5) (ix3 (edge0 j i) (0 : Fin 1) k) := by
  have f := (idx_facts t).2.2.2.2.2.1
  have f0 : win0_5.index t (0 : Fin 3) = 0 := congrFun f 0
  have f1 : win0_5.index t (1 : Fin 3) = 0 := congrFun f 1
  have f2 : win0_5.index t (2 : Fin 3) = 0 := congrFun f 2
  have e : ((cfg0.win 5).blk t).view.emb (ix3 k j i) = ix3 k j i := by
    funext a; apply Fin.ext
    match a with
    | ⟨0, _⟩ => show win0_5.index t (0 : Fin 3) * 2 + 1 * k.val = k.val; omega
    | ⟨1, _⟩ => show win0_5.index t (1 : Fin 3) * 64 + 1 * j.val = j.val; omega
    | ⟨2, _⟩ => show win0_5.index t (2 : Fin 3) * 64 + 1 * i.val = i.val; omega
  show (V m c main_v11 : S2x64x64.Idx → EReal) (((cfg0.win 5).blk t).view.emb (ix3 k j i)) = _
  rw [e]
  exact V_w3_0_apply m c k j i

/-- Window 6's block is its whole table, at every point. -/
theorem blk6 (c : Dev nD) (t : Fin cfg0.N) (j i : Fin 64) :
    iblk m c 6 t (ix2 j i) = m ((c : Thread nD τ).loc main_arg6) (ix2 (edge0 j i) (0 : Fin 1)) := by
  have f := (idx_facts t).2.2.2.2.2.2.1
  have f0 : win0_6.index t (0 : Fin 2) = 0 := congrFun f 0
  have f1 : win0_6.index t (1 : Fin 2) = 0 := congrFun f 1
  have e : ((cfg0.win 6).blk t).view.emb (ix2 j i) = ix2 j i := by
    funext a; apply Fin.ext
    match a with
    | ⟨0, _⟩ => show win0_6.index t (0 : Fin 2) * 64 + 1 * j.val = j.val; omega
    | ⟨1, _⟩ => show win0_6.index t (1 : Fin 2) * 64 + 1 * i.val = i.val; omega
  show (V m c main_v13 : S64x64.Idx → EReal) (((cfg0.win 6).blk t).view.emb (ix2 j i)) = _
  rw [e]
  exact V_b3_0_apply m c j i

/-- Window 7's block is its whole table, at every point. -/
theorem blk7 (c : Dev nD) (t : Fin cfg0.N) (k : Fin 2) (i : Fin 64) (o : Fin 16) :
    iblk m c 7 t (ix3 k i o) = m ((c : Thread nD τ).loc main_arg7) (ix3 (edge1 i o) k (0 : Fin 1)) := by
  have f := (idx_facts t).2.2.2.2.2.2.2.1
  have f0 : win0_7.index t (0 : Fin 3) = 0 := congrFun f 0
  have f1 : win0_7.index t (1 : Fin 3) = 0 := congrFun f 1
  have f2 : win0_7.index t (2 : Fin 3) = 0 := congrFun f 2
  have e : ((cfg0.win 7).blk t).view.emb (ix3 k i o) = ix3 k i o := by
    funext a; apply Fin.ext
    match a with
    | ⟨0, _⟩ => show win0_7.index t (0 : Fin 3) * 2 + 1 * k.val = k.val; omega
    | ⟨1, _⟩ => show win0_7.index t (1 : Fin 3) * 64 + 1 * i.val = i.val; omega
    | ⟨2, _⟩ => show win0_7.index t (2 : Fin 3) * 16 + 1 * o.val = o.val; omega
  show (V m c main_v16 : S2x64x16.Idx → EReal) (((cfg0.win 7).blk t).view.emb (ix3 k i o)) = _
  rw [e]
  exact V_w1_1_apply m c k i o

/-- Window 8's block is its whole table, at every point. -/
theorem blk8 (c : Dev nD) (t : Fin cfg0.N) (k : Fin 2) (i : Fin 64) (o : Fin 16) :
    iblk m c 8 t (ix3 k i o) = m ((c : Thread nD τ).loc main_arg8) (ix2 (edge1 i o) k) := by
  have f := (idx_facts t).2.2.2.2.2.2.2.2.1
  have f0 : win0_8.index t (0 : Fin 3) = 0 := congrFun f 0
  have f1 : win0_8.index t (1 : Fin 3) = 0 := congrFun f 1
  have f2 : win0_8.index t (2 : Fin 3) = 0 := congrFun f 2
  have e : ((cfg0.win 8).blk t).view.emb (ix3 k i o) = ix3 k i o := by
    funext a; apply Fin.ext
    match a with
    | ⟨0, _⟩ => show win0_8.index t (0 : Fin 3) * 2 + 1 * k.val = k.val; omega
    | ⟨1, _⟩ => show win0_8.index t (1 : Fin 3) * 64 + 1 * i.val = i.val; omega
    | ⟨2, _⟩ => show win0_8.index t (2 : Fin 3) * 16 + 1 * o.val = o.val; omega
  show (V m c main_v18 : S2x64x16.Idx → EReal) (((cfg0.win 8).blk t).view.emb (ix3 k i o)) = _
  rw [e]
  exact V_b1_1_apply m c k i o

/-- Window 9's block is its whole table, at every point. -/
theorem blk9 (c : Dev nD) (t : Fin cfg0.N) (k l : Fin 2) (i : Fin 64) (o : Fin 16) :
    iblk m c 9 t (ix4 k l i o) = m ((c : Thread nD τ).loc main_arg9) (ix3 (edge1 i o) k l) := by
  have f := (idx_facts t).2.2.2.2.2.2.2.2.2.1
  have f0 : win0_9.index t (0 : Fin 4) = 0 := congrFun f 0
  have f1 : win0_9.index t (1 : Fin 4) = 0 := congrFun f 1
  have f2 : win0_9.index t (2 : Fin 4) = 0 := congrFun f 2
  have f3 : win0_9.index t (3 : Fin 4) = 0 := congrFun f 3
  have e : ((cfg0.win 9).blk t).view.emb (ix4 k l i o) = ix4 k l i o := by
    funext a; apply Fin.ext
    match a with
    | ⟨0, _⟩ => show win0_9.index t (0 : Fin 4) * 2 + 1 * k.val = k.val; omega
    | ⟨1, _⟩ => show win0_9.index t (1 : Fin 4) * 2 + 1 * l.val = l.val; omega
    | ⟨2, _⟩ => show win0_9.index t (2 : Fin 4) * 64 + 1 * i.val = i.val; omega
    | ⟨3, _⟩ => show win0_9.index t (3 : Fin 4) * 16 + 1 * o.val = o.val; omega
  show (V m c main_v20 : S2x2x64x16.Idx → EReal) (((cfg0.win 9).blk t).view.emb (ix4 k l i o)) = _
  rw [e]
  exact V_w2_1_apply m c k l i o

/-- Window 10's block is its whole table, at every point. -/
theorem blk10 (c : Dev nD) (t : Fin cfg0.N) (k : Fin 2) (i : Fin 64) (o : Fin 16) :
    iblk m c 10 t (ix3 k i o) = m ((c : Thread nD τ).loc main_arg10) (ix2 (edge1 i o) k) := by
  have f := (idx_facts t).2.2.2.2.2.2.2.2.2.2.1
  have f0 : win0_10.index t (0 : Fin 3) = 0 := congrFun f 0
  have f1 : win0_10.index t (1 : Fin 3) = 0 := congrFun f 1
  have f2 : win0_10.index t (2 : Fin 3) = 0 := congrFun f 2
  have e : ((cfg0.win 10).blk t).view.emb (ix3 k i o) = ix3 k i o := by
    funext a; apply Fin.ext
    match a with
    | ⟨0, _⟩ => show win0_10.index t (0 : Fin 3) * 2 + 1 * k.val = k.val; omega
    | ⟨1, _⟩ => show win0_10.index t (1 : Fin 3) * 64 + 1 * i.val = i.val; omega
    | ⟨2, _⟩ => show win0_10.index t (2 : Fin 3) * 16 + 1 * o.val = o.val; omega
  show (V m c main_v22 : S2x64x16.Idx → EReal) (((cfg0.win 10).blk t).view.emb (ix3 k i o)) = _
  rw [e]
  exact V_b2_1_apply m c k i o

/-- Window 11's block is its whole table, at every point. -/
theorem blk11 (c : Dev nD) (t : Fin cfg0.N) (k : Fin 2) (i : Fin 64) (o : Fin 16) :
    iblk m c 11 t (ix3 k i o) = m ((c : Thread nD τ).loc main_arg11) (ix3 (edge1 i o) (0 : Fin 1) k) := by
  have f := (idx_facts t).2.2.2.2.2.2.2.2.2.2.2.1
  have f0 : win0_11.index t (0 : Fin 3) = 0 := congrFun f 0
  have f1 : win0_11.index t (1 : Fin 3) = 0 := congrFun f 1
  have f2 : win0_11.index t (2 : Fin 3) = 0 := congrFun f 2
  have e : ((cfg0.win 11).blk t).view.emb (ix3 k i o) = ix3 k i o := by
    funext a; apply Fin.ext
    match a with
    | ⟨0, _⟩ => show win0_11.index t (0 : Fin 3) * 2 + 1 * k.val = k.val; omega
    | ⟨1, _⟩ => show win0_11.index t (1 : Fin 3) * 64 + 1 * i.val = i.val; omega
    | ⟨2, _⟩ => show win0_11.index t (2 : Fin 3) * 16 + 1 * o.val = o.val; omega
  show (V m c main_v25 : S2x64x16.Idx → EReal) (((cfg0.win 11).blk t).view.emb (ix3 k i o)) = _
  rw [e]
  exact V_w3_1_apply m c k i o

/-- Window 12's block is its whole table, at every point. -/
theorem blk12 (c : Dev nD) (t : Fin cfg0.N) (i : Fin 64) (o : Fin 16) :
    iblk m c 12 t (ix2 i o) = m ((c : Thread nD τ).loc main_arg12) (ix2 (edge1 i o) (0 : Fin 1)) := by
  have f := (idx_facts t).2.2.2.2.2.2.2.2.2.2.2.2.1
  have f0 : win0_12.index t (0 : Fin 2) = 0 := congrFun f 0
  have f1 : win0_12.index t (1 : Fin 2) = 0 := congrFun f 1
  have e : ((cfg0.win 12).blk t).view.emb (ix2 i o) = ix2 i o := by
    funext a; apply Fin.ext
    match a with
    | ⟨0, _⟩ => show win0_12.index t (0 : Fin 2) * 64 + 1 * i.val = i.val; omega
    | ⟨1, _⟩ => show win0_12.index t (1 : Fin 2) * 16 + 1 * o.val = o.val; omega
  show (V m c main_v27 : S64x16.Idx → EReal) (((cfg0.win 12).blk t).view.emb (ix2 i o)) = _
  rw [e]
  exact V_b3_1_apply m c i o

/-! ## What a point writes back, the cover, and the array after the call -/

/-- WHAT POINT `t` WRITES BACK is block `t` of the specification's result transposed. -/
theorem flushed13_eq (c : Dev nD) (t : Fin cfg0.N) :
    (dats m 0 c).flushed 13 t = ((cfg0.win 13).blk t).view.read (Elt Ideal) (resultT m c) := by
  show (cfg0.win 13).cut (grid0.coords t) ((dats m 0 c).after 13 t) = _
  rw [after0_13]
  funext y
  obtain ⟨o, q, rfl⟩ : ∃ (o : Fin 16) (q : Fin 256), y = ix2 o q := ⟨y 0, y 1, eq_ix2 y⟩
  have f := (idx_facts t).2.2.2.2.2.2.2.2.2.2.2.2.2
  have f0 : win0_13.index t (0 : Fin 2) = 0 := congrFun f 0
  have f1 : win0_13.index t (1 : Fin 2) = t.val := congrFun f 1
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 o q)
    = resultT m c (((cfg0.win 13).blk t).view.emb (ix2 o q))
  refine (point_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    (rowAt t) (blk0 m c t) (blk1 m c t) (blk2 m c t) (blk3 m c t) (blk4 m c t) (blk5 m c t) (blk6 m c t) (blk7 m c t) (blk8 m c t) (blk9 m c t) (blk10 m c t) (blk11 m c t) (blk12 m c t) o q).trans ?_
  refine (resultT_apply m c _ (rowAt t q) o ?_ ?_).symm
  · show t.val * 256 + q.val = win0_13.index t (1 : Fin 2) * 256 + 1 * q.val; omega
  · show o.val = win0_13.index t (0 : Fin 2) * 16 + 1 * o.val; omega

/-- An index of the result array is in point `t`'s block iff each coordinate is in the block's range on its axis. -/
theorem mem_blk13 (t : Fin cfg0.N) (i : S16x16384.Idx) :
    i ∈ ((cfg0.win 13).blk t).view.set ↔ ∀ a : Fin 2, win0_13.index t a * S16x256.size a ≤ (i a).val ∧ (i a).val < win0_13.index t a * S16x256.size a + S16x256.size a := by
  show i ∈ ((View.whole main_v29).slice (win0_13.rect t)).set ↔ _
  rw [View.set_slice_whole, Rect.mem_set_unit]
  exact Iff.rfl

/-- Every index of the result array is in some point's block: column `r` in point `r / 256`'s. -/
theorem cover13 (i : S16x16384.Idx) :
    ∃ t : Fin cfg0.N, (cfg0.win 13).flush t = true ∧ i ∈ ((cfg0.win 13).blk t).view.set := by
  have h0 : (i 0).val < 16 := (i 0).isLt
  have h1 : (i 1).val < 16384 := (i 1).isLt
  obtain ⟨t, ht⟩ : ∃ t : Fin cfg0.N, t.val = (i 1).val / 256 :=
    ⟨⟨(i 1).val / 256, lt_of_lt_of_eq (by omega : (i 1).val / 256 < 64) N_0.symm⟩, rfl⟩
  refine ⟨t, flush0_13 t, ?_⟩
  rw [mem_blk13]
  have f := (idx_facts t).2.2.2.2.2.2.2.2.2.2.2.2.2
  have f0 : win0_13.index t (0 : Fin 2) = 0 := congrFun f 0
  have f1 : win0_13.index t (1 : Fin 2) = t.val := congrFun f 1
  intro a
  match a with
  | ⟨0, _⟩ => show win0_13.index t (0 : Fin 2) * 16 ≤ (i 0).val ∧ (i 0).val < win0_13.index t (0 : Fin 2) * 16 + 16; omega
  | ⟨1, _⟩ => show win0_13.index t (1 : Fin 2) * 256 ≤ (i 1).val ∧ (i 1).val < win0_13.index t (1 : Fin 2) * 256 + 256; omega

/-- THE RESULT ARRAY after the call is the specification's result transposed. -/
theorem final13 (c : Dev nD) : (dats m 0 c).arrAt 13 cfg0.N = resultT m c :=
  (dats m 0 c).arrAt_eq_of_cover 13 (resultT m c) (fun t _ => flushed13_eq m c t) cover13

end Cert.KanKernel

end
-- ==== Proof.KernelRun.lean ====
import proofs.«121321_j71794673320509_2_alg».proof.Proof.Blocks
import Idealize.ShloMosaic.Lib.StableHlo.Run
import Idealize.ShloMosaic.Lib.ValueLayout

/-! # The kernel's program computes the specification

After the call the host transposes the `[16, 16384]` result array once more. The call leaves that array at the
specification's result transposed (`final13`), so the program's result buffer ends at the specification's result, and the
thirteen arguments end as launched. -/

noncomputable section

namespace Cert.KanKernel

open Idealize.ShloMosaic Idealize.ShloMosaic.TcCoe Idealize.ShloMosaic.ValueIdx Idealize.SL.Sem
open Cert.KernelIdeal Cert.KernelIdeal.Gen Cert.Kan

variable (m : (ℓ : Loc nD τ sig) → Buf (Elt Ideal) ℓ) (ρ : Dev nD → PrngReg)

/-- The program's result buffer after the host's last transposition. -/
theorem tail_eq (c : Dev nD) :
    Pipeline.afterTail₀ cfgs (dats m) 0 (V0 m) [hostOps1] c main_v30 = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Pipeline.afterTail₀
  show StableHlo.after hostOps1 _ (Proc.devRef .tc main_v30) = _
  after_results
  have e : Pipeline.withArrays (cfgs 0).spec c (V0 m c) (fun w => (dats m 0 c).arrAt w (cfgs 0).N) (Proc.devRef .tc main_v29)
      = resultT m c :=
    (Pipeline.withArrays_arr spec0 launch0.win.arr_inj c _ _ 13).trans (final13 m c)
  rw [e]
  funext idx
  rw [eq_ix2 idx]
  exact (transpose_ix2_apply _ _ (idx 0) (idx 1)).trans rfl

/-- Every weakly fair execution of the kernel's program terminates with the result buffer at the specification's
    result of the arguments as launched, and the arguments unchanged. -/
theorem run : θ_run defs (onTc (τ := τ) (main (F := Ideal))) ⟨m, fun _ => 0, ρ⟩ (fun r => ∀ c : Dev nD,
      r.2.mem ((c.tc : Thread nD τ).loc main_v30) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h c).2 main_v30 (Pipeline.mem_restRefs_of main_v30 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KanKernel

end
-- ==== Proof.RefValue.lean ====
import proofs.«121321_j71794673320509_2_alg».proof.Proof.Gen.ReferenceIdeal.Read
import proofs.«121321_j71794673320509_2_alg».proof.Proof.Subnet

/-! # The reference computes the specification

The reference lists a layer's edges as rows `n` of a `[N, 16384, ·]` array: row `n` holds, for every batch row `b`, the
network of edge `n` applied to the input channel `n / OUT` (the input, transposed, with every channel repeated `OUT`
times). Its three contractions have extents 1, 2, 2 and are the sums `x · w`, `h 0 · w 0 + h 1 · w 1`; so row `n` at `b` is
`edgeNet … n (input (n / OUT, b))`. Splitting the rows into `[64, OUT]` and summing over the leading axis from zero gives
the layer: `hiddenVal` after the first, `outputVal` after the second, whose input is the first's result transposed twice. -/

noncomputable section

namespace Cert.KanRef

open Cert.ReferenceIdeal Cert.ReferenceIdeal.Gen Cert.ReferenceIdeal.Read Idealize.ShloMosaic Idealize.ShloMosaic.ValueIdx Cert.Kan
open scoped BigOperators

abbrev TX := (⟨S16384x64, .f32⟩ : BufTy).Contents (Elt Ideal)
abbrev TW1 := (⟨S4096x2x1, .f32⟩ : BufTy).Contents (Elt Ideal)
abbrev TB := (⟨S4096x2, .f32⟩ : BufTy).Contents (Elt Ideal)
abbrev TW2 := (⟨S4096x2x2, .f32⟩ : BufTy).Contents (Elt Ideal)
abbrev TW3 := (⟨S4096x1x2, .f32⟩ : BufTy).Contents (Elt Ideal)
abbrev TB3 := (⟨S4096x1, .f32⟩ : BufTy).Contents (Elt Ideal)
abbrev TV1 := (⟨S1024x2x1, .f32⟩ : BufTy).Contents (Elt Ideal)
abbrev TC := (⟨S1024x2, .f32⟩ : BufTy).Contents (Elt Ideal)
abbrev TV2 := (⟨S1024x2x2, .f32⟩ : BufTy).Contents (Elt Ideal)
abbrev TV3 := (⟨S1024x1x2, .f32⟩ : BufTy).Contents (Elt Ideal)
abbrev TC3 := (⟨S1024x1, .f32⟩ : BufTy).Contents (Elt Ideal)

/-! ## The composed index maps at coordinates: the first layer -/

theorem i_v16 (n : Fin 4096) (b : Fin 16384) (u : Fin 1) : idx_main_v16 (ix3 n b u) = ix3 n (0 : Fin 1) (0 : Fin 1) :=
  funext fun a => match a with | ⟨0, _⟩ => rfl | ⟨1, _⟩ => rfl | ⟨2, _⟩ => rfl

theorem i_v15 (n : Fin 4096) (u v : Fin 1) : idx_main_v15 (ix3 n u v) = ix2 n (0 : Fin 1) :=
  funext fun a => match a with | ⟨0, _⟩ => rfl | ⟨1, _⟩ => rfl

theorem l_v14 (n : Fin 4096) (b : Fin 16384) (u : Fin 1) (k : Fin 2) : lidx_main_v14 (ix3 n b u) k = ix3 n b k :=
  funext fun a => match a with | ⟨0, _⟩ => rfl | ⟨1, _⟩ => rfl | ⟨2, _⟩ => rfl

theorem r_v14 (n : Fin 4096) (b : Fin 16384) (u : Fin 1) (k : Fin 2) : ridx_main_v14 (ix3 n b u) k = ix3 n u k :=
  funext fun a => match a with | ⟨0, _⟩ => rfl | ⟨1, _⟩ => rfl | ⟨2, _⟩ => rfl

theorem i_v11 (n : Fin 4096) (b : Fin 16384) (k : Fin 2) : idx_main_v11 (ix3 n b k) = ix3 n (0 : Fin 1) k :=
  funext fun a => match a with | ⟨0, _⟩ => rfl | ⟨1, _⟩ => rfl | ⟨2, _⟩ => rfl

theorem i_v10 (n : Fin 4096) (u : Fin 1) (k : Fin 2) : idx_main_v10 (ix3 n u k) = ix2 n k :=
  funext fun a => match a with | ⟨0, _⟩ => rfl | ⟨1, _⟩ => rfl

theorem l_v9 (n : Fin 4096) (b : Fin 16384) (k h : Fin 2) : lidx_main_v9 (ix3 n b k) h = ix3 n b h :=
  funext fun a => match a with | ⟨0, _⟩ => rfl | ⟨1, _⟩ => rfl | ⟨2, _⟩ => rfl

theorem r_v9 (n : Fin 4096) (b : Fin 16384) (k h : Fin 2) : ridx_main_v9 (ix3 n b k) h = ix3 n k h :=
  funext fun a => match a with | ⟨0, _⟩ => rfl | ⟨1, _⟩ => rfl | ⟨2, _⟩ => rfl

theorem i_v6 (n : Fin 4096) (b : Fin 16384) (k : Fin 2) : idx_main_v6 (ix3 n b k) = ix3 n (0 : Fin 1) k :=
  funext fun a => match a with | ⟨0, _⟩ => rfl | ⟨1, _⟩ => rfl | ⟨2, _⟩ => rfl

theorem i_v5 (n : Fin 4096) (u : Fin 1) (k : Fin 2) : idx_main_v5 (ix3 n u k) = ix2 n k :=
  funext fun a => match a with | ⟨0, _⟩ => rfl | ⟨1, _⟩ => rfl

theorem l_v4 (n : Fin 4096) (b : Fin 16384) (k : Fin 2) (l : Fin 1) : lidx_main_v4 (ix3 n b k) l = ix3 n b l :=
  funext fun a => match a with | ⟨0, _⟩ => rfl | ⟨1, _⟩ => rfl | ⟨2, _⟩ => rfl

theorem r_v4 (n : Fin 4096) (b : Fin 16384) (k : Fin 2) (l : Fin 1) : ridx_main_v4 (ix3 n b k) l = ix3 n k l :=
  funext fun a => match a with | ⟨0, _⟩ => rfl | ⟨1, _⟩ => rfl | ⟨2, _⟩ => rfl

theorem i_v3 (n : Fin 4096) (b : Fin 16384) (l : Fin 1) : idx_main_v3 (ix3 n b l) = ix2 n b :=
  funext fun a => match a with | ⟨0, _⟩ => rfl | ⟨1, _⟩ => rfl

/-- Row `n` of the repeated, transposed input at batch row `b` is the input at `(b, n / 64)`. -/
theorem in_layer0 (n : Fin 4096) (b : Fin 16384) (j : Fin 64) (hj : j.val = n.val / 64) :
    idx_main_v0 (idx_main_v1 (idx_main_v2 (ix2 n b))) = ix2 b j := by
  funext a; apply Fin.ext
  have hn := n.isLt; have hb := b.isLt
  match a with
  | ⟨0, _⟩ => show (n.val * 16384 + b.val) % 16384 = b.val; omega
  | ⟨1, _⟩ => show (n.val * 16384 + b.val) / 1048576 = j.val; omega

/-- Edge `(j, i)` at batch row `b`, among the rows split into `[64, 64]`. -/
theorem row_layer0 (i : Fin 64) (b : Fin 16384) (j : Fin 64) :
    idx_main_v18 (idx_main_v19 (idx_main_v20 (ix2 i b) j)) = ix3 (edge0 j i) b (0 : Fin 1) := by
  funext a; apply Fin.ext
  have hi := i.isLt; have hb := b.isLt; have hj := j.isLt
  match a with
  | ⟨0, _⟩ => show ((((j.val * 64 + i.val) * 16384 + b.val) / 16384) * 16384 + ((j.val * 64 + i.val) * 16384 + b.val) % 16384) / 16384 = j.val * 64 + i.val; omega
  | ⟨1, _⟩ => show ((((j.val * 64 + i.val) * 16384 + b.val) / 16384) * 16384 + ((j.val * 64 + i.val) * 16384 + b.val) % 16384) / 1 % 16384 = b.val; omega
  | ⟨2, _⟩ => rfl

/-! ## The first layer -/

/-- Row `n` of the first layer's edges at batch row `b`: edge `n`'s network at input channel `n / 64`. -/
theorem edge_layer0 (x0 : TX) (x1 : TW1) (x2 : TB) (x3 : TW2) (x4 : TB) (x5 : TW3) (x6 : TB3) (n : Fin 4096) (b : Fin 16384) (j : Fin 64) (hj : j.val = n.val / 64) :
    val_main_v17 (F := Ideal) x0 x1 x2 x3 x4 x5 x6 (ix3 n b (0 : Fin 1)) = edgeNet x1 x2 x3 x4 x5 x6 n (x0 (ix2 b j)) := by
  rw [val_main_v17_apply, val_main_v14_apply, val_main_v16_apply, val_main_v15_apply]
  simp only [Fin.sum_univ_two, Fin.sum_univ_one, val_main_v13_apply, val_main_v12_apply, val_main_v9_apply, val_main_v11_apply,
    val_main_v10_apply, val_main_v8_apply, val_main_v7_apply, val_main_v4_apply, val_main_v6_apply, val_main_v5_apply,
    val_main_v3_apply, val_main_v2_apply, val_main_v1_apply, val_main_v0_apply, val_main_call0_v0_apply,
    val_main_call0_cst_apply, val_main_call1_v0_apply, val_main_call1_cst_apply,
    i_v16, i_v15, l_v14, r_v14, i_v11, i_v10, l_v9, r_v9, i_v6, i_v5, l_v4, r_v4, i_v3, in_layer0 n b j hj,
    Ideal.addf_def, Ideal.maximumf_def, Ideal.ofBits_def, Ideal.ofBits_zero_f32]
  rfl

/-- The first layer: hidden channel `i` at batch row `b`. -/
theorem hidden_eq (x0 : TX) (x1 : TW1) (x2 : TB) (x3 : TW2) (x4 : TB) (x5 : TW3) (x6 : TB3) (i : Fin 64) (b : Fin 16384) :
    val_main_v20 (F := Ideal) x0 x1 x2 x3 x4 x5 x6 (ix2 i b) = hiddenVal x0 x1 x2 x3 x4 x5 x6 i b := by
  rw [val_main_v20_apply]
  simp only [val_main_cst_apply, Ideal.ofBits_def, Ideal.ofBits_zero_f32, zero_add]
  unfold hiddenVal
  refine Finset.sum_congr rfl fun j _ => ?_
  rw [val_main_v19_apply, val_main_v18_apply, row_layer0]
  exact edge_layer0 x0 x1 x2 x3 x4 x5 x6 (edge0 j i) b j (by
    have hi := i.isLt; show j.val = (j.val * 64 + i.val) / 64; omega)

/-! ## The composed index maps at coordinates: the second layer -/

theorem i_v38 (n : Fin 1024) (b : Fin 16384) (u : Fin 1) : idx_main_v38 (ix3 n b u) = ix3 n (0 : Fin 1) (0 : Fin 1) :=
  funext fun a => match a with | ⟨0, _⟩ => rfl | ⟨1, _⟩ => rfl | ⟨2, _⟩ => rfl

theorem i_v37 (n : Fin 1024) (u v : Fin 1) : idx_main_v37 (ix3 n u v) = ix2 n (0 : Fin 1) :=
  funext fun a => match a with | ⟨0, _⟩ => rfl | ⟨1, _⟩ => rfl

theorem l_v36 (n : Fin 1024) (b : Fin 16384) (u : Fin 1) (k : Fin 2) : lidx_main_v36 (ix3 n b u) k = ix3 n b k :=
  funext fun a => match a with | ⟨0, _⟩ => rfl | ⟨1, _⟩ => rfl | ⟨2, _⟩ => rfl

theorem r_v36 (n : Fin 1024) (b : Fin 16384) (u : Fin 1) (k : Fin 2) : ridx_main_v36 (ix3 n b u) k = ix3 n u k :=
  funext fun a => match a with | ⟨0, _⟩ => rfl | ⟨1, _⟩ => rfl | ⟨2, _⟩ => rfl

theorem i_v33 (n : Fin 1024) (b : Fin 16384) (k : Fin 2) : idx_main_v33 (ix3 n b k) = ix3 n (0 : Fin 1) k :=
  funext fun a => match a with | ⟨0, _⟩ => rfl | ⟨1, _⟩ => rfl | ⟨2, _⟩ => rfl

theorem i_v32 (n : Fin 1024) (u : Fin 1) (k : Fin 2) : idx_main_v32 (ix3 n u k) = ix2 n k :=
  funext fun a => match a with | ⟨0, _⟩ => rfl | ⟨1, _⟩ => rfl

theorem l_v31 (n : Fin 1024) (b : Fin 16384) (k h : Fin 2) : lidx_main_v31 (ix3 n b k) h = ix3 n b h :=
  funext fun a => match a with | ⟨0, _⟩ => rfl | ⟨1, _⟩ => rfl | ⟨2, _⟩ => rfl

theorem r_v31 (n : Fin 1024) (b : Fin 16384) (k h : Fin 2) : ridx_main_v31 (ix3 n b k) h = ix3 n k h :=
  funext fun a => match a with | ⟨0, _⟩ => rfl | ⟨1, _⟩ => rfl | ⟨2, _⟩ => rfl

theorem i_v28 (n : Fin 1024) (b : Fin 16384) (k : Fin 2) : idx_main_v28 (ix3 n b k) = ix3 n (0 : Fin 1) k :=
  funext fun a => match a with | ⟨0, _⟩ => rfl | ⟨1, _⟩ => rfl | ⟨2, _⟩ => rfl

theorem i_v27 (n : Fin 1024) (u : Fin 1) (k : Fin 2) : idx_main_v27 (ix3 n u k) = ix2 n k :=
  funext fun a => match a with | ⟨0, _⟩ => rfl | ⟨1, _⟩ => rfl

theorem l_v26 (n : Fin 1024) (b : Fin 16384) (k : Fin 2) (l : Fin 1) : lidx_main_v26 (ix3 n b k) l = ix3 n b l :=
  funext fun a => match a with | ⟨0, _⟩ => rfl | ⟨1, _⟩ => rfl | ⟨2, _⟩ => rfl

theorem r_v26 (n : Fin 1024) (b : Fin 16384) (k : Fin 2) (l : Fin 1) : ridx_main_v26 (ix3 n b k) l = ix3 n k l :=
  funext fun a => match a with | ⟨0, _⟩ => rfl | ⟨1, _⟩ => rfl | ⟨2, _⟩ => rfl

theorem i_v25 (n : Fin 1024) (b : Fin 16384) (l : Fin 1) : idx_main_v25 (ix3 n b l) = ix2 n b :=
  funext fun a => match a with | ⟨0, _⟩ => rfl | ⟨1, _⟩ => rfl

/-- Row `n` of the repeated hidden array at batch row `b` is the first layer's result at `(n / 16, b)`: the two
    transpositions between the layers cancel. -/
theorem in_layer1 (n : Fin 1024) (b : Fin 16384) (i : Fin 64) (hi : i.val = n.val / 16) :
    idx_main_v21 (idx_main_v22 (idx_main_v23 (idx_main_v24 (ix2 n b)))) = ix2 i b := by
  funext a; apply Fin.ext
  have hn := n.isLt; have hb := b.isLt
  match a with
  | ⟨0, _⟩ => show (n.val * 16384 + b.val) / 262144 = i.val; omega
  | ⟨1, _⟩ => show (n.val * 16384 + b.val) % 16384 = b.val; omega

/-- Edge `(i, o)` at batch row `b`, among the rows split into `[64, 16]`. -/
theorem row_layer1 (o : Fin 16) (b : Fin 16384) (i : Fin 64) :
    idx_main_v40 (idx_main_v41 (idx_main_v42 (ix2 o b) i)) = ix3 (edge1 i o) b (0 : Fin 1) := by
  funext a; apply Fin.ext
  have ho := o.isLt; have hb := b.isLt; have hi := i.isLt
  match a with
  | ⟨0, _⟩ => show ((((i.val * 16 + o.val) * 16384 + b.val) / 16384) * 16384 + ((i.val * 16 + o.val) * 16384 + b.val) % 16384) / 16384 = i.val * 16 + o.val; omega
  | ⟨1, _⟩ => show ((((i.val * 16 + o.val) * 16384 + b.val) / 16384) * 16384 + ((i.val * 16 + o.val) * 16384 + b.val) % 16384) / 1 % 16384 = b.val; omega
  | ⟨2, _⟩ => rfl

/-! ## The second layer -/

/-- Row `n` of the second layer's edges at batch row `b`: edge `n`'s network at hidden channel `n / 16`. -/
theorem edge_layer1 (x0 : TX) (x1 : TW1) (x2 : TB) (x3 : TW2) (x4 : TB) (x5 : TW3) (x6 : TB3) (x7 : TV1) (x8 : TC) (x9 : TV2) (x10 : TC) (x11 : TV3) (x12 : TC3) (n : Fin 1024) (b : Fin 16384) (i : Fin 64) (hi : i.val = n.val / 16) :
    val_main_v39 (F := Ideal) x0 x1 x2 x3 x4 x5 x6 x7 x8 x9 x10 x11 x12 (ix3 n b (0 : Fin 1))
      = edgeNet x7 x8 x9 x10 x11 x12 n (val_main_v20 (F := Ideal) x0 x1 x2 x3 x4 x5 x6 (ix2 i b)) := by
  rw [val_main_v39_apply, val_main_v36_apply, val_main_v38_apply, val_main_v37_apply]
  simp only [Fin.sum_univ_two, Fin.sum_univ_one, val_main_v35_apply, val_main_v34_apply, val_main_v31_apply, val_main_v33_apply,
    val_main_v32_apply, val_main_v30_apply, val_main_v29_apply, val_main_v26_apply, val_main_v28_apply, val_main_v27_apply,
    val_main_v25_apply, val_main_v24_apply, val_main_v23_apply, val_main_v22_apply, val_main_v21_apply, val_main_call2_v0_apply,
    val_main_call2_cst_apply, val_main_call3_v0_apply, val_main_call3_cst_apply,
    i_v38, i_v37, l_v36, r_v36, i_v33, i_v32, l_v31, r_v31, i_v28, i_v27, l_v26, r_v26, i_v25, in_layer1 n b i hi,
    Ideal.addf_def, Ideal.maximumf_def, Ideal.ofBits_def, Ideal.ofBits_zero_f32]
  rfl

/-- The reference's result at batch row `b` and output channel `o`. -/
theorem output_eq (x0 : TX) (x1 : TW1) (x2 : TB) (x3 : TW2) (x4 : TB) (x5 : TW3) (x6 : TB3) (x7 : TV1) (x8 : TC) (x9 : TV2) (x10 : TC) (x11 : TV3) (x12 : TC3) (b : Fin 16384) (o : Fin 16) :
    val_main_v43 (F := Ideal) x0 x1 x2 x3 x4 x5 x6 x7 x8 x9 x10 x11 x12 (ix2 b o) = outputVal x0 x1 x2 x3 x4 x5 x6 x7 x8 x9 x10 x11 x12 b o := by
  rw [val_main_v43_apply, show idx_main_v43 (ix2 b o) = ix2 o b from
    funext fun a => match a with | ⟨0, _⟩ => rfl | ⟨1, _⟩ => rfl, val_main_v42_apply]
  simp only [val_main_cst_0_apply, Ideal.ofBits_def, Ideal.ofBits_zero_f32, zero_add]
  unfold outputVal
  refine Finset.sum_congr rfl fun i _ => ?_
  rw [val_main_v41_apply, val_main_v40_apply, row_layer1,
    edge_layer1 x0 x1 x2 x3 x4 x5 x6 x7 x8 x9 x10 x11 x12 (edge1 i o) b i (by have ho := o.isLt; show i.val = (i.val * 16 + o.val) / 16; omega),
    hidden_eq]

/-- The reference's result array is the specification's. -/
theorem result_eq (x0 : TX) (x1 : TW1) (x2 : TB) (x3 : TW2) (x4 : TB) (x5 : TW3) (x6 : TB3) (x7 : TV1) (x8 : TC) (x9 : TV2) (x10 : TC) (x11 : TV3) (x12 : TC3) : val_main_v43 (F := Ideal) x0 x1 x2 x3 x4 x5 x6 x7 x8 x9 x10 x11 x12 = result x0 x1 x2 x3 x4 x5 x6 x7 x8 x9 x10 x11 x12 := by
  funext idx
  rw [eq_ix2 idx]
  exact output_eq x0 x1 x2 x3 x4 x5 x6 x7 x8 x9 x10 x11 x12 (idx 0) (idx 1)

end Cert.KanRef

end
-- ==== Proof.lean ====
/-
  Two layers of per-edge networks (a "KAN" layer: every pair of an input and an output channel carries its own
  1 → 2 → 2 → 1 rectifier network, and an output channel is the sum of its edges' networks over the input channels),
  64 → 64 → 16 channels over 16384 batch rows, computed two ways.

  The reference lists each layer's edges as the rows of a [4096, 16384, ·] (then [1024, 16384, ·]) array: the input
  transposed and each channel repeated once per output channel, three batched contractions of extents 1, 2, 2 with a bias
  and a rectifier between them, the rows split into [64, OUT] and summed over the leading axis.
  The kernel puts the batch on the lanes: a grid of 64 points, each taking 256 batch rows of the transposed input and
  the twelve parameter tables re-laid with the small axes in front; its body builds the cube [IN, OUT, 256] of edge
  networks by broadcasts and pointwise arithmetic and sums it over the leading axis, twice; the host transposes the
  [16, 16384] result back.

  On the extended reals both are the same function, `Cert.Kan.result`: a contraction of extent 2 is the kernel's
  `t0 + t1`, one of extent 1 its single product, the reference's sum from zero is the kernel's sum, and everything
  else is a re-indexing (row `j · OUT + i` of a table against entry `(j, i)` of its re-laid copy; batch row
  `t · 256 + q` against lane `q` of point `t`). No law beyond `0 + x = x` is used, so the precondition is never opened.

  `Proof/Subnet.lean` states the specification; `Proof/RefValue.lean` reads the reference's run as it;
  `Proof/Body.lean`, `Point.lean` read the kernel's body at an index; `HostPrefix.lean` the host's re-layout;
  `Blocks.lean` joins the 64 blocks into the call's result array; `KernelRun.lean` adds the last transposition.
  The three frames are the generated ones; nothing was idealized, so `preserves` is `True`.
-/
import proofs.«121321_j71794673320509_2_alg».proof.Defs
import proofs.«121321_j71794673320509_2_alg».proof.Proof.Gen.Kernel
import proofs.«121321_j71794673320509_2_alg».proof.Proof.Gen.Kernel.Frame
import proofs.«121321_j71794673320509_2_alg».proof.Proof.Gen.KernelIdeal
import proofs.«121321_j71794673320509_2_alg».proof.Proof.Gen.KernelIdeal.Frame
import proofs.«121321_j71794673320509_2_alg».proof.Proof.Gen.ReferenceIdeal
import proofs.«121321_j71794673320509_2_alg».proof.Proof.Gen.Pre_finite_inputs
import proofs.«121321_j71794673320509_2_alg».proof.Proof.Gen.ReferenceIdeal.Run
import proofs.«121321_j71794673320509_2_alg».proof.Proof.Gen.ReferenceIdeal.Read
import proofs.«121321_j71794673320509_2_alg».proof.Proof.KernelRun
import proofs.«121321_j71794673320509_2_alg».proof.Proof.RefValue

noncomputable section

namespace Cert.Proof

open Idealize.ShloMosaic Idealize.ShloMosaic.TcCoe Idealize.SL.Sem

/-- The kernel's program as printed runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the thirteen arguments both programs end with the specification's result of them. -/
theorem algebraic : Cert.algebraic_KernelIdeal_ReferenceIdeal := by
  intro m ρ m' ρ' _ hagree
  refine ⟨_, Cert.KanKernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v43_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))).trans ?_
  refine (Cert.KanRef.result_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))).trans ?_
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
